-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S128x128 : Shape := ⟨2, ![128, 128]⟩
abbrev S256x1 : Shape := ⟨2, ![256, 1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : IVec S8192x8192 32) (main_arg1 : FVec F S8192x128 .f32) (main_arg2 : FVec F S128x128 .f32) (main_arg3 : FVec F S256x1 .f32) : IVec S_ 1 :=
  let main_v0 : FVec F S8192x128 .f32 := Host.absf main_arg1
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S8192x8192 : Shape := ⟨2, ![8192, 8192]⟩
abbrev S8192x128 : Shape := ⟨2, ![8192, 128]⟩
abbrev S128x128 : Shape := ⟨2, ![128, 128]⟩
abbrev S256x1 : Shape := ⟨2, ![256, 1]⟩
abbrev S128x1 : Shape := ⟨2, ![128, 1]⟩
abbrev S8192x1 : Shape := ⟨2, ![8192, 1]⟩
abbrev S1x8192 : Shape := ⟨2, ![1, 8192]⟩
abbrev S1024x1 : Shape := ⟨2, ![1024, 1]⟩
abbrev S1x2048 : Shape := ⟨2, ![1, 2048]⟩
abbrev S1024x2048 : Shape := ⟨2, ![1024, 2048]⟩
abbrev S1024x128 : Shape := ⟨2, ![1024, 128]⟩
abbrev S1024 : Shape := ⟨1, ![1024]⟩
abbrev S2048x128 : Shape := ⟨2, ![2048, 128]⟩

abbrev nBuf : Space → Nat
  | .hbm => 12
  | .vmem => 12
  | .smem => 0
  | _ => 0

abbrev bufTy : (tb : Table) → Fin (tcTables nBuf tb) → BufTy
  | .hbm, ⟨0, _⟩ => ⟨S8192x8192, .i32⟩
  | .hbm, ⟨1, _⟩ => ⟨S8192x128, .f32⟩
  | .hbm, ⟨2, _⟩ => ⟨S128x128, .f32⟩
  | .hbm, ⟨3, _⟩ => ⟨S256x1, .f32⟩
  | .hbm, ⟨4, _⟩ => ⟨S8192x128, .f32⟩
  | .hbm, ⟨5, _⟩ => ⟨S128x1, .f32⟩
  | .hbm, ⟨6, _⟩ => ⟨S8192x1, .f32⟩
  | .hbm, ⟨7, _⟩ => ⟨S128x1, .f32⟩
  | .hbm, ⟨8, _⟩ => ⟨S8192x1, .f32⟩
  | .hbm, ⟨9, _⟩ => ⟨S1x8192, .f32⟩
  | .hbm, ⟨10, _⟩ => ⟨S8192x128, .bf16⟩
  | .hbm, ⟨11, _⟩ => ⟨S8192x128, .f32⟩
  | .local _ .vmem, ⟨0, _⟩ => ⟨S1024x1, .f32⟩
  | .local _ .vmem, ⟨1, _⟩ => ⟨S1024x1, .f32⟩
  | .local _ .vmem, ⟨2, _⟩ => ⟨S1x2048, .f32⟩
  | .local _ .vmem, ⟨3, _⟩ => ⟨S1x2048, .f32⟩
  | .local _ .vmem, ⟨4, _⟩ => ⟨S1024x2048, .i32⟩
  | .local _ .vmem, ⟨5, _⟩ => ⟨S1024x2048, .i32⟩
  | .local _ .vmem, ⟨6, _⟩ => ⟨S8192x128, .bf16⟩
  | .local _ .vmem, ⟨7, _⟩ => ⟨S1024x128, .f32⟩
  | .local _ .vmem, ⟨8, _⟩ => ⟨S1024x128, .f32⟩
  | .local _ .vmem, ⟨9, _⟩ => ⟨S1024x1, .f32⟩
  | .local _ .vmem, ⟨10, _⟩ => ⟨S1024x1, .f32⟩
  | .local _ .vmem, ⟨11, _⟩ => ⟨S1024x128, .f32⟩
  | _, _ => ⟨S8192x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v37 : BitVec 32 := Scalar.muli arg1 c2048_i32
  v37
def k0_off1 (i : grid0.Coords) : Fin 2 → Nat :=
  let arg1 : BitVec 32 := BitVec.ofNat 32 (i 1).val
  let c2048_i32 : BitVec 32 := 2048#32
  let v37 : BitVec 32 := Scalar.muli arg1 c2048_i32
  let v38 : BitVec 32 := v37
  let v39 : Index := Scalar.indexCast v38
  let c0_17 : Index := 0#32
  ![v39.toNat, 0]
def k0_cond2 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S256x1_S128x1_0_0 : S256x1.Slices ![0, 0] S128x1
  slices_S256x1_S128x1_128_0 : S256x1.Slices ![128, 0] S128x1
  shapeCasts_S8192x1_S1x8192 : S8192x1.ShapeCasts S1x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  h_S2048x128 : 0 < S2048x128.numel
  shapeCasts_S2048x128_S2048x128 : S2048x128.ShapeCasts S2048x128
  broadcasts_S1024x1_S1024x128 : S1024x1.Broadcasts S1024x128
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S1024x2048_S2048x128_S1024x128_1_0_0_1_n_n_wf : DotDims.WF S1024x2048 S2048x128 S1024x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .f32 = 32 ∨ (Rect.block (s := S1x8192) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .i32 = 32 ∨ (Rect.block (s := S8192x8192) S1024x2048.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .bf16 = 32 ∨ (Rect.block (s := S8192x128) S8192x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v2) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S128x128 : Shape := ⟨2, ![128, 128]⟩
abbrev S256x1 : Shape := ⟨2, ![256, 1]⟩
abbrev S128x1 : Shape := ⟨2, ![128, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 43
  | .vmem => 0
  | .smem => 0
  | _ => 0

abbrev bufTy : (tb : Table) → Fin (tcTables nBuf tb) → BufTy
  | .hbm, ⟨0, _⟩ => ⟨S8192x8192, .i32⟩
  | .hbm, ⟨1, _⟩ => ⟨S8192x128, .f32⟩
  | .hbm, ⟨2, _⟩ => ⟨S128x128, .f32⟩
  | .hbm, ⟨3, _⟩ => ⟨S256x1, .f32⟩
  | .hbm, ⟨4, _⟩ => ⟨S8192x128, .f32⟩
  | .hbm, ⟨5, _⟩ => ⟨S128x1, .f32⟩
  | .hbm, ⟨6, _⟩ => ⟨S8192x1, .f32⟩
  | .hbm, ⟨7, _⟩ => ⟨S128x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x128, .f32⟩
  | _, _ => ⟨S8192x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  slices_S256x1_S128x1_0_0 : S256x1.Slices ![0, 0] S128x1
  slices_S256x1_S128x1_128_0 : S256x1.Slices ![128, 0] S128x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Spec.lean ====
/-
  The graph-attention layer as functions of the argument arrays, index by index, on the extended reals.

  From the adjacency matrix `A`, the features `X`, the weights `Ws` and the attention vector `a`:
  the projected features `wh = X · Ws`, the two attention terms `e1 = wh · a[0:128]` and `e2 = wh · a[128:256]`,
  and the score of the pair (r, c): the leaky rectifier (slope 0.2) of `e1 r + e2 c` where `A r c > 0`, the finite
  fill value elsewhere. A row of the result is the softmax of the row of scores applied to `wh`.

  Two forms of that row are stated. `refOut` is the two-pass form: subtract the row's maximum, exponentiate,
  divide each weight by the row's sum, then sum the weighted rows of `wh`. `kerOut` is the one-pass form over four
  blocks of 2048 columns: a running maximum `m`, a running sum `l` and a running weighted sum `acc`, the last two
  rescaled by `exp (m_old - m_new)` whenever the maximum moves, and one division `acc / l` at the end.
-/
import Idealize.ShloMosaic.PureOps.Ideal
import Idealize.ShloMosaic.Lib.ValueIdx

noncomputable section

open scoped BigOperators

namespace Cert.Gat

open Idealize.ShloMosaic Idealize.ShloMosaic.ValueIdx

variable (A : (⟨2, ![8192, 8192]⟩ : Shape).Idx → BitVec 32) (X : (⟨2, ![8192, 128]⟩ : Shape).Idx → EReal)
  (Ws : (⟨2, ![128, 128]⟩ : Shape).Idx → EReal) (a : (⟨2, ![256, 1]⟩ : Shape).Idx → EReal)

/-- The projected features: row `r` of `X` against column `d` of `Ws`. -/
def wh (r : Fin 8192) (d : Fin 128) : EReal := ∑ k : Fin 128, X (ix2 r k) * Ws (ix2 k d)

/-- Entry `k` of the first half of the attention vector. -/
def aLo (k : Fin 128) : EReal := a (ix2 (⟨k.val, by omega⟩ : Fin 256) (0 : Fin 1))

/-- Entry `k` of the second half of the attention vector. -/
def aHi (k : Fin 128) : EReal := a (ix2 (⟨128 + k.val, by omega⟩ : Fin 256) (0 : Fin 1))

/-- The attention term of a node as a source: its projected features against the first half of `a`. -/
def e1 (r : Fin 8192) : EReal := ∑ k : Fin 128, wh X Ws r k * aLo a k

/-- The attention term of a node as a target: its projected features against the second half of `a`. -/
def e2 (c : Fin 8192) : EReal := ∑ k : Fin 128, wh X Ws c k * aHi a k

/-- The leaky rectifier with slope 0.2 (the f32 nearest to it), as a comparison against zero and a choice. -/
def lrelu (x : EReal) : EReal :=
  Scalar.select (FloatOps.cmpf (F := Ideal) (φ := .f32) .oge x (Ideal.ofBits .f32 0x00000000#32)) x
    (Ideal.ofBits .f32 0x3E4CCCCD#32 * x)

/-- The score of the pair (r, c): the rectified sum of the two attention terms on an edge, the finite fill value
    (the f32 nearest to -9e15) off it. -/
def score (r c : Fin 8192) : EReal :=
  Scalar.select (IntOp.cmpi .sgt (A (ix2 r c)) 0#32) (lrelu (e1 X Ws a r + e2 X Ws a c)) (Ideal.ofBits .f32 0xD9FFCB9E#32)

/-- The largest score of row `r`. -/
def rowMax (r : Fin 8192) : EReal := (Finset.univ : Finset (Fin 8192)).fold max ⊥ (fun c => score A X Ws a r c)

/-- The two-pass form of entry (r, d): each weight `exp (score - max)` divided by the row's sum of weights, then the
    weighted sum of column `d` of the projected features. -/
def refOut (r : Fin 8192) (d : Fin 128) : EReal :=
  ∑ c : Fin 8192, Ideal.div (Ideal.exp (score A X Ws a r c - rowMax A X Ws a r))
      (∑ c' : Fin 8192, Ideal.exp (score A X Ws a r c' - rowMax A X Ws a r)) * wh X Ws c d

/-- Column `c` of block `j` of 2048 columns (read modulo 8192, so that it is a column for every `j`; for `j < 4` it is
    `2048 * j + c`). -/
def col (j : ℕ) (c : Fin 2048) : Fin 8192 := ⟨(2048 * j + c.val) % 8192, Nat.mod_lt _ (by norm_num)⟩

/-- The largest score of row `r` inside block `j`. -/
def blkMax (r : Fin 8192) (j : ℕ) : EReal :=
  (Finset.univ : Finset (Fin 2048)).fold max ⊥ (fun c => score A X Ws a r (col j c))

/-- The one-pass state of row `r` after its first `j` blocks: the running maximum, the running sum of weights and the
    running weighted sum of the projected features, the sums taken relative to the running maximum. -/
def st (r : Fin 8192) : ℕ → EReal × EReal × (Fin 128 → EReal)
  | 0 => (⊥, 0, fun _ => 0)
  | j + 1 =>
    (max (st r j).1 (blkMax A X Ws a r j),
     Ideal.exp ((st r j).1 - max (st r j).1 (blkMax A X Ws a r j)) * (st r j).2.1
       + ∑ c : Fin 2048, Ideal.exp (score A X Ws a r (col j c) - max (st r j).1 (blkMax A X Ws a r j)),
     fun d => Ideal.exp ((st r j).1 - max (st r j).1 (blkMax A X Ws a r j)) * (st r j).2.2 d
       + ∑ c : Fin 2048, Ideal.exp (score A X Ws a r (col j c) - max (st r j).1 (blkMax A X Ws a r j)) * wh X Ws (col j c) d)

/-- The one-pass form of entry (r, d): after the four blocks, the weighted sum divided by the sum of weights. -/
def kerOut (r : Fin 8192) (d : Fin 128) : EReal := Ideal.div ((st A X Ws a r 4).2.2 d) ((st A X Ws a r 4).2.1)

end Cert.Gat

end
-- ==== Proof.SoftmaxAbs.lean ====
/-
  The arithmetic of the one-pass softmax, over abstract finite index types, stated on the extended reals for
  real-valued scores and weights.

  Every partial sum of weights is kept in the form `exp (-M) * P`: `M` the current reference point (any real; in the
  application a running maximum) and `P` a sum of `exp (score)`, free of `M`. Moving the reference point from `M` to
  `M'` multiplies by `exp (M - M')`, and `exp (M - M') * exp (-M) = exp (-M')`; a quotient of two such sums does
  not depend on the reference point at all, which is why the one-pass and the two-pass forms agree whatever
  maxima they subtract.
-/
import Idealize.ShloMosaic.PureOps.Ideal

noncomputable section

open scoped BigOperators

namespace Cert.Gat

open Idealize.ShloMosaic

variable {ι κ : Type*}

/-- The coercion of the reals into the extended reals commutes with finite sums. -/
theorem coe_finset_sum (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion commutes with the maximum of two reals. -/
theorem coe_max_real (x y : ℝ) : ((max x y : ℝ) : EReal) = max (x : EReal) (y : EReal) :=
  EReal.coe_strictMono.monotone.map_max

/-- The running maximum (a fold of `max` from `⊥`) of real values over a nonempty finite set is a real. -/
theorem fold_max_coe (t : Finset ι) (f : ι → ℝ) (ht : t.Nonempty) :
    ∃ x : ℝ, t.fold max ⊥ (fun c => (f c : EReal)) = (x : EReal) := by
  classical
  induction t using Finset.induction_on with
  | empty => exact absurd ht Finset.not_nonempty_empty
  | insert a t ha ih =>
    rw [Finset.fold_insert ha]
    rcases t.eq_empty_or_nonempty with rfl | hne
    · exact ⟨f a, by rw [Finset.fold_empty, max_eq_left bot_le]⟩
    · obtain ⟨x, hx⟩ := ih hne
      exact ⟨max (f a) x, by rw [hx, coe_max_real]⟩

section Steps

variable [Fintype κ]

/-- The first block, weights only: from the empty state (maximum `⊥`, sum `0`) the rescaling factor is
    `exp ⊥ = 0` and the new sum is the block's own. -/
theorem first_sum (b : ℝ) (s : κ → ℝ) :
    Ideal.exp ((⊥ : EReal) - (b : EReal)) * 0 + ∑ c, Ideal.exp ((s c : EReal) - (b : EReal))
      = ((Real.exp (-b) * ∑ c, Real.exp (s c) : ℝ) : EReal) := by
  rw [EReal.bot_sub, Ideal.exp_bot, mul_zero, zero_add]
  simp_rw [← EReal.coe_sub, Ideal.exp_coe]
  rw [← coe_finset_sum, Finset.mul_sum]
  refine congrArg _ (Finset.sum_congr rfl fun c _ => ?_)
  rw [← Real.exp_add]; congr 1; ring

/-- The first block, weighted by `g`. -/
theorem first_wsum (b : ℝ) (s g : κ → ℝ) :
    Ideal.exp ((⊥ : EReal) - (b : EReal)) * 0 + ∑ c, Ideal.exp ((s c : EReal) - (b : EReal)) * (g c : EReal)
      = ((Real.exp (-b) * ∑ c, Real.exp (s c) * g c : ℝ) : EReal) := by
  rw [EReal.bot_sub, Ideal.exp_bot, mul_zero, zero_add]
  simp_rw [← EReal.coe_sub, Ideal.exp_coe, ← EReal.coe_mul]
  rw [← coe_finset_sum, Finset.mul_sum]
  refine congrArg _ (Finset.sum_congr rfl fun c _ => ?_)
  rw [← mul_assoc, ← Real.exp_add]; congr 2; ring

/-- A later block, weights only: the old sum `exp (-M) * P` rescaled by `exp (M - M')` plus the block's weights
    relative to `M'` is `exp (-M')` times the enlarged sum. -/
theorem next_sum (M M' P : ℝ) (s : κ → ℝ) :
    Ideal.exp ((M : EReal) - (M' : EReal)) * ((Real.exp (-M) * P : ℝ) : EReal)
        + ∑ c, Ideal.exp ((s c : EReal) - (M' : EReal))
      = ((Real.exp (-M') * (P + ∑ c, Real.exp (s c)) : ℝ) : EReal) := by
  simp_rw [← EReal.coe_sub, Ideal.exp_coe]
  rw [← coe_finset_sum, ← EReal.coe_mul, ← EReal.coe_add]
  refine congrArg _ ?_
  have h1 : ∀ c, Real.exp (s c - M') = Real.exp (-M') * Real.exp (s c) := fun c => by
    rw [← Real.exp_add]; congr 1; ring
  have h2 : Real.exp (M - M') * Real.exp (-M) = Real.exp (-M') := by
    rw [← Real.exp_add]; congr 1; ring
  simp_rw [h1]
  rw [← Finset.mul_sum, ← mul_assoc, h2, mul_add]

/-- A later block, weighted by `g`. -/
theorem next_wsum (M M' Q : ℝ) (s g : κ → ℝ) :
    Ideal.exp ((M : EReal) - (M' : EReal)) * ((Real.exp (-M) * Q : ℝ) : EReal)
        + ∑ c, Ideal.exp ((s c : EReal) - (M' : EReal)) * (g c : EReal)
      = ((Real.exp (-M') * (Q + ∑ c, Real.exp (s c) * g c) : ℝ) : EReal) := by
  simp_rw [← EReal.coe_sub, Ideal.exp_coe, ← EReal.coe_mul]
  rw [← coe_finset_sum, ← EReal.coe_add]
  refine congrArg _ ?_
  have h1 : ∀ c, Real.exp (s c - M') * g c = Real.exp (-M') * (Real.exp (s c) * g c) := fun c => by
    rw [← mul_assoc, ← Real.exp_add]; congr 2; ring
  have h2 : Real.exp (M - M') * Real.exp (-M) = Real.exp (-M') := by
    rw [← Real.exp_add]; congr 1; ring
  simp_rw [h1]
  rw [← Finset.mul_sum, ← mul_assoc, h2, mul_add]

/-- The end: the one-pass quotient (one division of the two sums, both relative to `M`) is the two-pass sum (every
    weight, relative to `R`, divided by the sum of the weights). Both are `(∑ exp s * g) / ∑ exp s`: the
    reference points cancel, and the sum of weights is positive because the index type is not empty. -/
theorem quotient_eq [Nonempty κ] (M R : ℝ) (s g : κ → ℝ) :
    Ideal.div ((Real.exp (-M) * ∑ c, Real.exp (s c) * g c : ℝ) : EReal)
        ((Real.exp (-M) * ∑ c, Real.exp (s c) : ℝ) : EReal)
      = ∑ c, Ideal.div (Ideal.exp ((s c : EReal) - (R : EReal)))
            (∑ c', Ideal.exp ((s c' : EReal) - (R : EReal))) * (g c : EReal) := by
  have hP : 0 < ∑ c, Real.exp (s c) := Finset.sum_pos (fun _ _ => Real.exp_pos _) Finset.univ_nonempty
  have hZ : ∑ c, Real.exp (s c - R) = Real.exp (-R) * ∑ c, Real.exp (s c) := by
    rw [Finset.mul_sum]
    refine Finset.sum_congr rfl fun c _ => ?_
    rw [← Real.exp_add]; congr 1; ring
  have hZ0 : (∑ c, Real.exp (s c - R)) ≠ 0 := by
    rw [hZ]; exact (mul_pos (Real.exp_pos _) hP).ne'
  simp_rw [← EReal.coe_sub, Ideal.exp_coe]
  rw [← coe_finset_sum]
  simp_rw [Ideal.div_coe hZ0, ← EReal.coe_mul]
  rw [← coe_finset_sum, Ideal.div_coe (mul_pos (Real.exp_pos _) hP).ne', ← EReal.coe_mul]
  refine congrArg _ ?_
  have hM : Real.exp (-M) ≠ 0 := (Real.exp_pos _).ne'
  have hR : Real.exp (-R) ≠ 0 := (Real.exp_pos _).ne'
  have hterm : ∀ c, Real.exp (s c - R) * (1 / ∑ c', Real.exp (s c' - R)) * g c
      = Real.exp (s c) * g c * (1 / ∑ c', Real.exp (s c')) := fun c => by
    rw [hZ, show s c - R = -R + s c by ring, Real.exp_add]
    field_simp
  simp_rw [hterm]
  rw [← Finset.sum_mul]
  field_simp

end Steps

end Cert.Gat

end
-- ==== Proof.SoftmaxCols.lean ====
/-
  The four blocks of 2048 columns are the 8192 columns, each once: `(j, c) ↦ 2048 * j + c` is a bijection from
  `Fin 4 × Fin 2048` onto `Fin 8192`, so a sum over the blocks in turn is the sum over all columns.
-/
import proofs.«144379_j82592221102847_2_alg».proof.Proof.Spec

noncomputable section

open scoped BigOperators

namespace Cert.Gat

open Idealize.ShloMosaic

/-- Block `j < 4` and offset `c` determine the column, and every column arises: an injection between two types of
    8192 elements. -/
theorem col_bijective : Function.Bijective (fun p : Fin 4 × Fin 2048 => col p.1.val p.2) := by
  rw [Fintype.bijective_iff_injective_and_card]
  refine ⟨?_, by simp⟩
  rintro ⟨i, c⟩ ⟨i', c'⟩ h
  have h' : (2048 * i.val + c.val) % 8192 = (2048 * i'.val + c'.val) % 8192 := congrArg Fin.val h
  have hi := i.isLt
  have hi' := i'.isLt
  have hc := c.isLt
  have hc' := c'.isLt
  refine Prod.ext (Fin.ext ?_) (Fin.ext ?_)
  · show i.val = i'.val
    omega
  · show c.val = c'.val
    omega

/-- A sum over the four blocks in turn is the sum over all columns. -/
theorem sum_cols {M : Type*} [AddCommMonoid M] (f : Fin 8192 → M) :
    ∑ i ∈ Finset.range 4, ∑ c : Fin 2048, f (col i c) = ∑ c : Fin 8192, f c := by
  rw [← Fin.sum_univ_eq_sum_range (fun i => ∑ c : Fin 2048, f (col i c)) 4, ← Fintype.sum_prod_type']
  exact Fintype.sum_bijective _ col_bijective _ _ (fun _ => rfl)

end Cert.Gat

end
-- ==== Proof.SoftmaxReal.lean ====
/-
  Finiteness: with real-valued inputs every intermediate quantity of the layer is a real number.

  The projected features and the two attention terms are finite sums of products of reals. The leaky rectifier of a
  real is that real or a real multiple of it, whichever way the comparison goes, and a score is such a value or the
  fill value; the slope and the fill value are finite binary fractions (their exponent fields are not all ones).
  No comparison is ever evaluated.
-/
import proofs.«144379_j82592221102847_2_alg».proof.Proof.Spec
import proofs.«144379_j82592221102847_2_alg».proof.Proof.SoftmaxAbs

noncomputable section

open scoped BigOperators

namespace Cert.Gat

open Idealize.ShloMosaic Idealize.ShloMosaic.ValueIdx

/-- An extended real that is the coercion of a real. -/
def IsReal (x : EReal) : Prop := ∃ u : ℝ, x = (u : EReal)

theorem IsReal.add {x y : EReal} (hx : IsReal x) (hy : IsReal y) : IsReal (x + y) := by
  obtain ⟨u, rfl⟩ := hx
  obtain ⟨v, rfl⟩ := hy
  exact ⟨u + v, (EReal.coe_add u v).symm⟩

theorem IsReal.mul {x y : EReal} (hx : IsReal x) (hy : IsReal y) : IsReal (x * y) := by
  obtain ⟨u, rfl⟩ := hx
  obtain ⟨v, rfl⟩ := hy
  exact ⟨u * v, (EReal.coe_mul u v).symm⟩

theorem IsReal.sum {ι : Type*} (t : Finset ι) (f : ι → EReal) (h : ∀ i, IsReal (f i)) : IsReal (∑ i ∈ t, f i) := by
  choose g hg using h
  exact ⟨∑ i ∈ t, g i, by rw [coe_finset_sum]; exact Finset.sum_congr rfl fun i _ => hg i⟩

/-- A choice between two reals is a real, whatever the condition. -/
theorem IsReal.select (c : BitVec 1) {x y : EReal} (hx : IsReal x) (hy : IsReal y) : IsReal (Scalar.select c x y) := by
  unfold Scalar.select
  split_ifs
  · exact hx
  · exact hy

/-- A 32-bit pattern whose exponent field is not all ones denotes a real. -/
theorem ofBits_f32_real (b : BitVec 32) (h : (b.extractLsb' 23 8).toNat ≠ 2 ^ 8 - 1) :
    IsReal (Ideal.ofBits .f32 b) := by
  show IsReal (Ideal.ieee 8 23 b)
  unfold Ideal.ieee
  dsimp only
  rw [if_neg h]
  split_ifs <;> exact ⟨_, rfl⟩

/-- The rectifier's slope (the f32 nearest to 0.2) is a real. -/
theorem slope_real : IsReal (Ideal.ofBits .f32 0x3E4CCCCD#32) := ofBits_f32_real _ (by decide)

/-- The fill value (the f32 nearest to -9e15) is a real. -/
theorem fill_real : IsReal (Ideal.ofBits .f32 0xD9FFCB9E#32) := ofBits_f32_real _ (by decide)

variable (A : (⟨2, ![8192, 8192]⟩ : Shape).Idx → BitVec 32) (X : (⟨2, ![8192, 128]⟩ : Shape).Idx → EReal)
  (Ws : (⟨2, ![128, 128]⟩ : Shape).Idx → EReal) (a : (⟨2, ![256, 1]⟩ : Shape).Idx → EReal)

theorem wh_real (hX : ∀ i, ∃ x : ℝ, X i = (x : EReal)) (hW : ∀ i, ∃ x : ℝ, Ws i = (x : EReal))
    (r : Fin 8192) (d : Fin 128) : IsReal (wh X Ws r d) :=
  IsReal.sum _ _ fun k => IsReal.mul (hX (ix2 r k)) (hW (ix2 k d))

theorem e1_real (hX : ∀ i, ∃ x : ℝ, X i = (x : EReal)) (hW : ∀ i, ∃ x : ℝ, Ws i = (x : EReal))
    (ha : ∀ i, ∃ x : ℝ, a i = (x : EReal)) (r : Fin 8192) : IsReal (e1 X Ws a r) :=
  IsReal.sum _ _ fun k => (wh_real X Ws hX hW r k).mul (ha _)

theorem e2_real (hX : ∀ i, ∃ x : ℝ, X i = (x : EReal)) (hW : ∀ i, ∃ x : ℝ, Ws i = (x : EReal))
    (ha : ∀ i, ∃ x : ℝ, a i = (x : EReal)) (c : Fin 8192) : IsReal (e2 X Ws a c) :=
  IsReal.sum _ _ fun k => (wh_real X Ws hX hW c k).mul (ha _)

/-- The rectifier of a real is a real: the value itself or the slope times it. -/
theorem lrelu_real {x : EReal} (hx : IsReal x) : IsReal (lrelu x) :=
  IsReal.select _ hx (slope_real.mul hx)

/-- Every score is a real: a rectified real on an edge, the fill value off it. -/
theorem score_real (hX : ∀ i, ∃ x : ℝ, X i = (x : EReal)) (hW : ∀ i, ∃ x : ℝ, Ws i = (x : EReal))
    (ha : ∀ i, ∃ x : ℝ, a i = (x : EReal)) (r c : Fin 8192) : IsReal (score A X Ws a r c) :=
  IsReal.select _ (lrelu_real ((e1_real X Ws a hX hW ha r).add (e2_real X Ws a hX hW ha c))) fill_real

end Cert.Gat

end
-- ==== Proof.Softmax.lean ====
/-
  The one-pass softmax-weighted sum equals the two-pass one when the inputs are finite.

  With real scores `s` and projected features `w`, after `j + 1 ≥ 1` blocks the one-pass state is
  `(M, exp (-M) * P, exp (-M) * Q)` for a real `M` (the running maximum; only its being a real is used), `P` the sum
  of `exp s` and `Q` the sum of `exp s * w` over the columns of the blocks seen. The first block starts from the empty
  state, whose rescaling factor is `exp ⊥ = 0`; a later block rescales by `exp (M - M')`. After four blocks the sums
  run over all 8192 columns, and the quotient `Q / P` is what the two-pass form computes, whichever maximum it
  subtracts.
-/
import proofs.«144379_j82592221102847_2_alg».proof.Proof.Spec
import proofs.«144379_j82592221102847_2_alg».proof.Proof.SoftmaxAbs
import proofs.«144379_j82592221102847_2_alg».proof.Proof.SoftmaxCols
import proofs.«144379_j82592221102847_2_alg».proof.Proof.SoftmaxReal

noncomputable section

open scoped BigOperators

namespace Cert.Gat

open Idealize.ShloMosaic Idealize.ShloMosaic.ValueIdx

variable (A : (⟨2, ![8192, 8192]⟩ : Shape).Idx → BitVec 32) (X : (⟨2, ![8192, 128]⟩ : Shape).Idx → EReal)
  (Ws : (⟨2, ![128, 128]⟩ : Shape).Idx → EReal) (a : (⟨2, ![256, 1]⟩ : Shape).Idx → EReal)

/-- The empty state. -/
theorem st_zero (r : Fin 8192) : st A X Ws a r 0 = (⊥, 0, fun _ => 0) := rfl

/-- One block, from a state given by its three components. -/
theorem st_step (r : Fin 8192) (j : ℕ) (m l : EReal) (acc : Fin 128 → EReal)
    (h : st A X Ws a r j = (m, l, acc)) :
    st A X Ws a r (j + 1) =
      (max m (blkMax A X Ws a r j),
       Ideal.exp (m - max m (blkMax A X Ws a r j)) * l
         + ∑ c : Fin 2048, Ideal.exp (score A X Ws a r (col j c) - max m (blkMax A X Ws a r j)),
       fun d => Ideal.exp (m - max m (blkMax A X Ws a r j)) * acc d
         + ∑ c : Fin 2048, Ideal.exp (score A X Ws a r (col j c) - max m (blkMax A X Ws a r j))
             * wh X Ws (col j c) d) := by
  show (max (st A X Ws a r j).1 (blkMax A X Ws a r j), _, _) = _
  rw [h]

/-- The state after `j + 1` blocks, for real scores and features. -/
theorem st_real (r : Fin 8192) (s : Fin 8192 → ℝ) (w : Fin 8192 → Fin 128 → ℝ)
    (hs : ∀ c, score A X Ws a r c = (s c : EReal)) (hw : ∀ c d, wh X Ws c d = (w c d : EReal)) (j : ℕ) :
    ∃ M : ℝ, st A X Ws a r (j + 1) =
      ((M : EReal),
       ((Real.exp (-M) * ∑ i ∈ Finset.range (j + 1), ∑ c : Fin 2048, Real.exp (s (col i c)) : ℝ) : EReal),
       fun d => ((Real.exp (-M) * ∑ i ∈ Finset.range (j + 1), ∑ c : Fin 2048,
          Real.exp (s (col i c)) * w (col i c) d : ℝ) : EReal)) := by
  have hblk : ∀ j, ∃ b : ℝ, blkMax A X Ws a r j = (b : EReal) := fun j => by
    unfold blkMax
    simp_rw [hs]
    exact fold_max_coe _ _ Finset.univ_nonempty
  induction j with
  | zero =>
    obtain ⟨b, hb⟩ := hblk 0
    refine ⟨b, ?_⟩
    rw [st_step A X Ws a r 0 _ _ _ (st_zero A X Ws a r), hb, max_eq_right bot_le]
    simp_rw [hs, hw]
    rw [first_sum]
    simp_rw [first_wsum]
    simp only [zero_add, Finset.sum_range_one]
  | succ j ih =>
    obtain ⟨M, hM⟩ := ih
    obtain ⟨b, hb⟩ := hblk (j + 1)
    refine ⟨max M b, ?_⟩
    rw [st_step A X Ws a r (j + 1) _ _ _ hM, hb, ← coe_max_real]
    simp_rw [hs, hw]
    rw [next_sum]
    simp_rw [next_wsum]
    simp only [Finset.sum_range_succ _ (j + 1)]

/-- The state after the four blocks: the sums run over all columns. -/
theorem st_four (r : Fin 8192) (s : Fin 8192 → ℝ) (w : Fin 8192 → Fin 128 → ℝ)
    (hs : ∀ c, score A X Ws a r c = (s c : EReal)) (hw : ∀ c d, wh X Ws c d = (w c d : EReal)) :
    ∃ M : ℝ, st A X Ws a r 4 =
      ((M : EReal), ((Real.exp (-M) * ∑ c : Fin 8192, Real.exp (s c) : ℝ) : EReal),
       fun d => ((Real.exp (-M) * ∑ c : Fin 8192, Real.exp (s c) * w c d : ℝ) : EReal)) := by
  obtain ⟨M, hM⟩ := st_real A X Ws a r s w hs hw 3
  refine ⟨M, hM.trans ?_⟩
  have h1 := sum_cols (fun c => Real.exp (s c))
  have h2 : ∀ d, _ := fun d => sum_cols (fun c => Real.exp (s c) * w c d)
  simp only [h1, h2]

theorem kerOut_eq_refOut (hX : ∀ i, ∃ x : ℝ, X i = (x : EReal)) (hW : ∀ i, ∃ x : ℝ, Ws i = (x : EReal))
    (ha : ∀ i, ∃ x : ℝ, a i = (x : EReal)) (r : Fin 8192) (d : Fin 128) :
    kerOut A X Ws a r d = refOut A X Ws a r d := by
  choose s hs using fun c => score_real A X Ws a hX hW ha r c
  choose w hw using fun c d => wh_real X Ws hX hW c d
  obtain ⟨M, hM⟩ := st_four A X Ws a r s w hs hw
  obtain ⟨R, hR⟩ : ∃ R : ℝ, rowMax A X Ws a r = (R : EReal) := by
    unfold rowMax
    simp_rw [hs]
    exact fold_max_coe _ _ Finset.univ_nonempty
  unfold kerOut refOut
  rw [hM, hR]
  simp_rw [hs, hw]
  exact quotient_eq M R s (fun c => w c d)

end Cert.Gat

end
-- ==== Proof.FinitePre.lean ====
/-
  From the precondition to the reals.

  The precondition is the conjunction, over the three float argument arrays, of "every entry's absolute value is
  below +∞", each conjunct a reduction by `and` of the array of comparisons down to one bit. A reduction by `and`
  that comes out 1 met a 1 at every index; a comparison `|x| < +∞` that comes out 1 rules out both infinities
  (`|⊥| = |⊤| = ⊤`), and an extended real that is neither infinity is a real.
-/
import proofs.«144379_j82592221102847_2_alg».proof.Defs
import proofs.«144379_j82592221102847_2_alg».proof.Proof.Gen.Pre_finite_inputs
import Idealize.ShloMosaic.Lib.ReduceAll
import Idealize.ShloMosaic.Lib.ValueIdx

noncomputable section

namespace Cert.Proof.FinitePre

open Idealize.ShloMosaic Idealize.SL.Sem

/-- The f32 pattern with an all-ones exponent and a zero fraction is +∞. -/
theorem inf_bits : Ideal.ofBits .f32 0x7F800000#32 = ⊤ := by simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => exfalso; revert h; simp [Ideal.cmp]
  | coe r => exact ⟨r, rfl⟩
  | top => exfalso; revert h; simp [Ideal.cmp]

/-- The shape of a scalar has one index. -/
instance : Subsingleton Cert.Pre_finite_inputs.S_.Idx := ⟨fun a b => funext fun d => d.elim0⟩

/-- One conjunct, for an array of any shape: if the reduction by `and` of the comparisons `|x i| < +∞` (the bound
    broadcast from a scalar constant) is 1, every entry of `x` is a real. -/
theorem real_of_all {s : Shape} {axes : List (Fin s.rank)} (x : FVec Ideal s .f32)
    (dims : Fin Cert.Pre_finite_inputs.S_.rank → Fin s.rank) (hb : Cert.Pre_finite_inputs.S_.BroadcastsInDim s dims)
    (init : IVec Cert.Pre_finite_inputs.S_ 1) (hr : s.ReducesTo axes Cert.Pre_finite_inputs.S_)
    (hu : 0 < Cert.Pre_finite_inputs.S_.numel) (j : Cert.Pre_finite_inputs.S_.Idx)
    (e : Host.reduce IntOp.andi
          (cmpf .olt (Host.absf x)
            (broadcastInDim s dims hb (constant (F := Ideal) Cert.Pre_finite_inputs.S_ .f32 0x7F800000#32)))
          init hr hu j = 1#1)
    (i : s.Idx) : ∃ r : ℝ, x i = (r : EReal) :=
  real_of_abs_lt_inf (x i) (Host.reduce_andi_all _ init hr hu j e i)

/-- Under the precondition every entry of the three float argument arrays is a real. -/
theorem inputs_real (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal))
    ∧ (∀ i, ∃ x : ℝ, m ((c.tc : Thread Cert.KernelIdeal.nD Cert.KernelIdeal.τ).loc Cert.KernelIdeal.main_arg3) i = (x : EReal)) := by
  have h0 := congrFun (h c) ValueIdx.ix0
  dsimp only [Cert.Pre_finite_inputs.fn, Idealize.ShloMosaic.andi] at h0
  obtain ⟨h12, h3⟩ := IntOp.andi_eq_one.1 h0
  obtain ⟨h1, h2⟩ := IntOp.andi_eq_one.1 h12
  exact ⟨fun i => real_of_all _ _ _ _ _ _ _ h1 i, fun i => real_of_all _ _ _ _ _ _ _ h2 i,
    fun i => real_of_all _ _ _ _ _ _ _ h3 i⟩

end Cert.Proof.FinitePre

end
-- ==== Proof.RefRun.lean ====
/-
  The reference's program as one straight line, and its run.

  The reference has no kernel: its entry function is thirty-one host operations and two calls of outlined
  functions (the leaky rectifier, which itself calls a three-way choice, and a choice against a scalar). With the
  calls opened at their call sites it is a straight line of thirty-nine operations, each writing a buffer of its
  own. Running a straight line leaves every buffer at the fold of the operations' results over the launch
  contents; read at the result buffer that fold is one composed term of the four argument arrays, stated below in
  stages that follow the mathematics: the projected features, the two attention columns, the matrix of their sums,
  the rectifier, the masked scores, the row maxima, the exponentials, the row sums, the quotients and the last
  product.
-/
import proofs.«144379_j82592221102847_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-! ## The composed term, in stages -/

/-- The projected features: the features against the weights. -/
def whV (X : FVec F S8192x128 .f32) (Ws : FVec F S128x128 .f32) : FVec F S8192x128 .f32 :=
  Host.dotGeneral dot_S8192x128_S128x128_S8192x128_1_0_0_1_n_n none X Ws

/-- The attention column of the nodes as sources: the projected features against rows 0 to 127 of the attention vector. -/
def e1V (X : FVec F S8192x128 .f32) (Ws : FVec F S128x128 .f32) (a : FVec F S256x1 .f32) : FVec F S8192x1 .f32 :=
  Host.dotGeneral dot_S8192x128_S128x1_S8192x1_1_0_0_1_n_n none (whV X Ws)
    (extractStridedSlice S128x1 ![0, 0] a slices_S256x1_S128x1_0_0)

/-- The attention column of the nodes as targets: the projected features against rows 128 to 255 of the attention vector. -/
def e2V (X : FVec F S8192x128 .f32) (Ws : FVec F S128x128 .f32) (a : FVec F S256x1 .f32) : FVec F S8192x1 .f32 :=
  Host.dotGeneral dot_S8192x128_S128x1_S8192x1_1_0_0_1_n_n none (whV X Ws)
    (extractStridedSlice S128x1 ![128, 0] a slices_S256x1_S128x1_128_0)

/-- The matrix of sums: the source column spread along the rows plus the target column, turned into a row, spread
    along the columns. -/
def sumV (X : FVec F S8192x128 .f32) (Ws : FVec F S128x128 .f32) (a : FVec F S256x1 .f32) : FVec F S8192x8192 .f32 :=
  addf (broadcastInDim S8192x8192 ![0, 1] bcast_S8192x1_S8192x8192_0_1 (e1V X Ws a))
    (broadcastInDim S8192x8192 ![0, 1] bcast_S1x8192_S8192x8192_0_1
      (transpose S1x8192 [1, 0] (e2V X Ws a) transposes_S8192x1_S1x8192_1_0))

/-- The leaky rectifier applied entrywise: the entry where it is at least zero, the slope times the entry elsewhere. -/
def lreluV (x : FVec F S8192x8192 .f32) : FVec F S8192x8192 .f32 :=
  select (cmpf .oge x (broadcastInDim S8192x8192 ![] bcast_S_S8192x8192 (constant S_ .f32 0x00000000#32))) x
    (mulf (broadcastInDim S8192x8192 ![] bcast_S_S8192x8192 (id (constant S_ .f32 0x3E4CCCCD#32))) x)

/-- The masked scores: the rectified sums on the edges (adjacency entry above zero), the fill value elsewhere. -/
def scoreV (A : IVec S8192x8192 32) (X : FVec F S8192x128 .f32) (Ws : FVec F S128x128 .f32) (a : FVec F S256x1 .f32) :
    FVec F S8192x8192 .f32 :=
  select (cmpi .sgt A (broadcastInDim S8192x8192 ![] bcast_S_S8192x8192 (constantI S_ 32 0#32)))
    (lreluV (sumV X Ws a))
    (broadcastInDim S8192x8192 ![] bcast_S_S8192x8192 (id (constant S_ .f32 0xD9FFCB9E#32)))

/-- The row maxima of a matrix, each also compared with minus infinity. -/
def rowMaxV (s : FVec F S8192x8192 .f32) : FVec F S8192 .f32 :=
  maximumf (broadcastInDim S8192 ![] bcast_S_S8192 (constant S_ .f32 0xFF800000#32))
    (Host.reduce FloatOps.maximumf s (constant S_ .f32 0xFF800000#32) reducesTo_S8192x8192_S8192_d1 h_S_)

/-- A vector of one value per row spread over the whole matrix (through a column). -/
def spreadV (v : FVec F S8192 .f32) : FVec F S8192x8192 .f32 :=
  broadcastInDim S8192x8192 ![0, 1] bcast_S8192x1_S8192x8192_0_1 (broadcastInDim S8192x1 ![0] bcast_S8192_S8192x1_0 v)

/-- The exponentials of the entries less their row's maximum. -/
def expV (s : FVec F S8192x8192 .f32) : FVec F S8192x8192 .f32 :=
  Host.exp (subf s (spreadV (rowMaxV s)))

/-- The row sums of a matrix, from zero. -/
def rowSumV (e : FVec F S8192x8192 .f32) : FVec F S8192 .f32 :=
  Host.reduceAdd e (constant S_ .f32 0x00000000#32) reducesTo_S8192x8192_S8192_d1 h_S_

/-- Each entry divided by its row's sum. -/
def softV (e : FVec F S8192x8192 .f32) : FVec F S8192x8192 .f32 :=
  Host.divf e (spreadV (rowSumV e))

/-- What the reference computes from the four argument arrays: the normalised weights against the projected features. -/
def out (A : IVec S8192x8192 32) (X : FVec F S8192x128 .f32) (Ws : FVec F S128x128 .f32) (a : FVec F S256x1 .f32) :
    FVec F S8192x128 .f32 :=
  Host.dotGeneral dot_S8192x8192_S8192x128_S8192x128_1_0_0_1_n_n none (softV (expV (scoreV A X Ws a))) (whV X Ws)

/-! ## The straight line -/

/-- The entry function's operations in order, the calls opened: the rectifier is six operations into its call's
    buffers followed by the one of the choice it calls; the choice against the fill value is three. -/
abbrev ops : List (HloOp τ sig (Elt F)) :=
  [ binary main_arg1 main_arg2 main_v0 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg3 main_v1 ((extractStridedSlice S128x1 ![0, 0] · slices_S256x1_S128x1_0_0) : (⟨S256x1, .f32⟩ : BufTy).Contents (Elt F) → (⟨S128x1, .f32⟩ : BufTy).Contents (Elt F)),
    binary main_v0 main_v1 main_v2 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_arg3 main_v3 ((extractStridedSlice S128x1 ![128, 0] · slices_S256x1_S128x1_128_0) : (⟨S256x1, .f32⟩ : BufTy).Contents (Elt F) → (⟨S128x1, .f32⟩ : BufTy).Contents (Elt F)),
    binary main_v0 main_v3 main_v4 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_v4 main_v5 ((transpose S1x8192 [1, 0] · transposes_S8192x1_S1x8192_1_0) : (⟨S8192x1, .f32⟩ : BufTy).Contents (Elt F) → (⟨S1x8192, .f32⟩ : BufTy).Contents (Elt F)),
    unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v8) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v8) main_call0.v4 mulf,
    TRef.ternary main_call0.v1 (.of main_v8) main_call0.v4 main_call0.call0.v0 select,
    nullary main_c (constantI S_ 32 0#32),
    unary main_c main_v10 (broadcastInDim S8192x8192 ![] bcast_S_S8192x8192 : (⟨S_, .i32⟩ : BufTy).Contents (Elt F) → (⟨S8192x8192, .i32⟩ : BufTy).Contents (Elt F)),
    binary main_arg0 main_v10 main_v11 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0) main_call1.v0 id,
    TRef.unary main_call1.v0 main_call1.v1 (broadcastInDim S8192x8192 ![] bcast_S_S8192x8192),
    TRef.ternary (.of main_v11) (.of main_v9) main_call1.v1 main_call1.v2 select,
    nullary main_cst_1 (constant S_ .f32 0xFF800000#32),
    binary main_v12 main_cst_1 main_v13 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v14 (broadcastInDim S8192 ![] bcast_S_S8192 : (⟨S_, .f32⟩ : BufTy).Contents (Elt F) → (⟨S8192, .f32⟩ : BufTy).Contents (Elt F)),
    binary main_v14 main_v13 main_v15 (maximumf : (⟨S8192, .f32⟩ : BufTy).Contents (Elt F) → (⟨S8192, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    binary main_v12 main_v17 main_v18 (subf : (⟨S8192x8192, .f32⟩ : BufTy).Contents (Elt F) → (⟨S8192x8192, .f32⟩ : BufTy).Contents (Elt F) → (⟨S8192x8192, .f32⟩ : BufTy).Contents (Elt F)),
    unary main_v18 main_v19 (Host.exp : (⟨S8192x8192, .f32⟩ : BufTy).Contents (Elt F) → (⟨S8192x8192, .f32⟩ : BufTy).Contents (Elt F)),
    nullary main_cst_3 (constant S_ .f32 0x00000000#32),
    binary main_v19 main_cst_3 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)),
    binary main_v23 main_v0 main_v24 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)) ]

-- thirty-nine binds re-associated: the rewrite under the chain recurses once per statement
set_option maxRecDepth 1024 in
/-- The entry function is that straight line: the outlined functions' definitions opened at their calls and the
    calls' buffer records at their fields, both sides are one chain of steps once sequencing is re-associated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., unary_bufs_sub .., binary_bufs_sub .., unary_bufs_sub ..,
    unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub ..,
    unary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..⟩

/-- Every weakly fair execution of the entry function terminates with every buffer at the fold of the operations'
    results over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer is the composed term of the contents of the four argument buffers. -/
theorem out_eq (V : Valuation τ sig (Elt F)) :
    after ops V (main_v24 : DevRef τ sig)
      = out (V (main_arg0 : DevRef τ sig)) (V (main_arg1 : DevRef τ sig)) (V (main_arg2 : DevRef τ sig))
          (V (main_arg3 : DevRef τ sig)) := by
  after_results_simp
  rfl

/-- No operation writes an argument buffer. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp

/-- On every device, for any float values, from any memory with zero counters: every weakly fair execution of the
    entry function terminates with the result buffer at the composed term of the arguments' launch contents and the
    arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v24).trans (out_eq _),
      (h c main_arg0).trans (arg0_eq _), (h c main_arg1).trans (arg1_eq _),
      (h c main_arg2).trans (arg2_eq _), (h c main_arg3).trans (arg3_eq _)⟩)
    (run_fold m ρ)

end Cert.ReferenceIdeal.RefValue

end
-- ==== Proof.LibPlainDot.lean ====
/-
  A matrix product of the plain kind — rows × contraction times contraction × columns — read at an index, at the
  ideal instance.

  For the dimension numbers `DotDims.plain M K N` both the vector unit's matmul into a zero accumulator and the host's
  dot_general are, at output index (a, b), the sum over k of l (a, k) · r (k, b) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of such a product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx,
        l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.LibColumnLayout.lean ====
/-
  Columns and rows of a two-axis array, read at an index with literal `Fin` coordinates.

  A reduction along the lanes of an `[a, b]` array leaves one value per row; kept as a column `[a, 1]` it is broadcast
  back over the `b` lanes. This file reads those layout steps at an index — a vector `[a]` recast as the column
  `[a, 1]`, a column broadcast to `[a, b]` — and reads the two lane reductions of a row at the extended reals: the
  maximum of row `p` is the fold of `max` over `q : Fin b` of the entries `(p, q)` from the initial word's value, its
  sum the sum over `q : Fin b` of those entries.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib.ColumnLayout

open Idealize.ShloMosaic Idealize.ShloMosaic.ValueIdx

variable {α : Type}

/-- A vector `[a]` recast as the column `[a, 1]` reads, at `(i, 0)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of an `[a, b]` array over row `p` of the lane-reduced `[a]` with lane `q` put back is `(p, q)`. -/
theorem lift_row {a b : ℕ} (h : (⟨2, ![a, b]⟩ : Shape).Reduces [(1 : Fin 2)] ⟨1, ![a]⟩) (p : Fin a) (q : Fin b) :
    h.lift (ix1 p) q = ix2 p q := by
  funext c
  apply Fin.ext
  show h.liftVal (ix1 p) q.val c = (ix2 p q c).val
  unfold Shape.Reduces.liftVal
  match c with
  | ⟨0, _⟩ => rfl
  | ⟨1, _⟩ => rfl

/-- The lane maximum of row `p` at the extended reals: the fold of `max` over the row's entries from the initial word's value. -/
theorem rowMax_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ)
    (p : Fin a) :
    multiReduction .maximumf [(1 : Fin 2)] ⟨1, ![a]⟩ src acc h hφ hacc (ix1 p)
      = (Finset.univ : Finset (Fin b)).fold max (Ideal.ofBits φ acc) (fun q => src (ix2 p q)) := by
  refine (Ideal.multiReduction_maximumf_single src acc h hφ hacc (ix1 p)).trans ?_
  show (Finset.univ : Finset (Fin b)).fold max (Ideal.ofBits φ acc) (fun q => src (h.lift (ix1 p) q)) = _
  congr 1
  funext q
  exact congrArg src (lift_row h p q)

/-- The lane sum of row `p` at the extended reals: the sum of the row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (p : Fin a) :
    multiReduction .add [(1 : Fin 2)] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  exact Finset.sum_congr rfl fun q _ => congrArg src (lift_row h p q)

end Cert.Lib.ColumnLayout

end
-- ==== Proof.RefRead.lean ====
/-
  The reference's composed term read at an index.

  Each stage of the composed term is read at one index of its result, on the extended reals: a product of matrices
  as the sum over the contracted coordinate, the two cuts of the attention vector as its entries 0 to 127 and 128 to
  255, a column spread along the rows and a row spread along the columns as the column's and the row's entry, the
  row reductions as a fold of max from minus infinity and as a sum from zero. Composed, entry (r, d) of the result is
  the two-pass softmax row of the specification applied to the projected features.
-/
import proofs.«144379_j82592221102847_2_alg».proof.Proof.RefRun
import proofs.«144379_j82592221102847_2_alg».proof.Proof.Spec
import proofs.«144379_j82592221102847_2_alg».proof.Proof.LibPlainDot
import proofs.«144379_j82592221102847_2_alg».proof.Proof.LibColumnLayout
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Idealize.ShloMosaic.TcCoe
  Idealize.SL.Sem

/-- The f32 word of minus infinity is the bottom of the extended reals. -/
theorem ofBits_neg_inf_f32 : Ideal.ofBits .f32 0xFF800000#32 = ⊥ := by simp [Ideal.ofBits, Ideal.ieee]

/-- The rows of a matrix are reduced along axis 1. -/
theorem reduces_rows : S8192x8192.Reduces [(1 : Fin 2)] S8192 := by decide

section Stages

variable (A : IVec S8192x8192 32) (X : FVec Ideal S8192x128 .f32) (Ws : FVec Ideal S128x128 .f32)
  (a : FVec Ideal S256x1 .f32)

/-- The projected features at (r, d). -/
theorem whV_apply (r : Fin 8192) (d : Fin 128) : whV X Ws (ix2 r d) = Cert.Gat.wh X Ws r d :=
  PlainDot.dotGeneral_plain _ rfl none X Ws r d

/-- The source column at row r. -/
theorem e1V_apply (r : Fin 8192) : e1V X Ws a (ix2 r (0 : Fin 1)) = Cert.Gat.e1 X Ws a r := by
  refine (PlainDot.dotGeneral_plain _ rfl none _ _ r (0 : Fin 1)).trans ?_
  refine Finset.sum_congr rfl fun k _ => ?_
  rw [whV_apply, slice2_axis0_apply 0 a slices_S256x1_S128x1_0_0 k (0 : Fin 1) ⟨k.val, by omega⟩ (Nat.zero_add _).symm]
  rfl

/-- The target column at row c. -/
theorem e2V_apply (c : Fin 8192) : e2V X Ws a (ix2 c (0 : Fin 1)) = Cert.Gat.e2 X Ws a c := by
  refine (PlainDot.dotGeneral_plain _ rfl none _ _ c (0 : Fin 1)).trans ?_
  refine Finset.sum_congr rfl fun k _ => ?_
  rw [whV_apply, slice2_axis0_apply 128 a slices_S256x1_S128x1_128_0 k (0 : Fin 1) ⟨128 + k.val, by omega⟩ rfl]
  rfl

/-- A column spread along the rows reads the column's entry of the row. -/
theorem spreadCol_apply {α : Type} (v : S8192x1.Idx → α) (r c : Fin 8192) :
    broadcastInDim S8192x8192 ![0, 1] bcast_S8192x1_S8192x8192_0_1 v (ix2 r c) = v (ix2 r (0 : Fin 1)) :=
  broadcastInDim_apply _ _ v (ix2 r c) (ix2 r (0 : Fin 1)) fun ax =>
    match ax with | ⟨0, _⟩ => rfl | ⟨1, _⟩ => rfl

/-- A row spread along the columns reads the row's entry of the column. -/
theorem spreadRow_apply {α : Type} (v : S1x8192.Idx → α) (r c : Fin 8192) :
    broadcastInDim S8192x8192 ![0, 1] bcast_S1x8192_S8192x8192_0_1 v (ix2 r c) = v (ix2 (0 : Fin 1) c) :=
  broadcastInDim_apply _ _ v (ix2 r c) (ix2 (0 : Fin 1) c) fun ax =>
    match ax with | ⟨0, _⟩ => rfl | ⟨1, _⟩ => rfl

/-- A vector made a column reads the vector's entry. -/
theorem column_apply {α : Type} (v : S8192.Idx → α) (r : Fin 8192) :
    broadcastInDim S8192x1 ![0] bcast_S8192_S8192x1_0 v (ix2 r (0 : Fin 1)) = v (ix1 r) :=
  broadcastInDim_apply _ _ v (ix2 r (0 : Fin 1)) (ix1 r) fun ax =>
    match ax with | ⟨0, _⟩ => rfl

/-- The matrix of sums at (r, c): the source term of r plus the target term of c. -/
theorem sumV_apply (r c : Fin 8192) : sumV X Ws a (ix2 r c) = Cert.Gat.e1 X Ws a r + Cert.Gat.e2 X Ws a c := by
  show broadcastInDim S8192x8192 ![0, 1] bcast_S8192x1_S8192x8192_0_1 (e1V X Ws a) (ix2 r c)
      + broadcastInDim S8192x8192 ![0, 1] bcast_S1x8192_S8192x8192_0_1
          (transpose S1x8192 [1, 0] (e2V X Ws a) transposes_S8192x1_S1x8192_1_0) (ix2 r c) = _
  rw [spreadCol_apply, spreadRow_apply, transpose_ix2_apply, e1V_apply, e2V_apply]

/-- The rectifier at an index is the rectifier of the entry. -/
theorem lreluV_apply (x : FVec Ideal S8192x8192 .f32) (i : S8192x8192.Idx) : lreluV x i = Cert.Gat.lrelu (x i) := rfl

/-- The masked scores at (r, c). -/
theorem scoreV_apply (r c : Fin 8192) : scoreV A X Ws a (ix2 r c) = Cert.Gat.score A X Ws a r c := by
  show Scalar.select (IntOp.cmpi .sgt (A (ix2 r c)) 0#32) (lreluV (sumV X Ws a) (ix2 r c))
      (Ideal.ofBits .f32 0xD9FFCB9E#32) = _
  rw [lreluV_apply, sumV_apply]
  rfl

end Stages

/-- The exponential of the host at an index is the exponential of the entry. -/
theorem hostExp_apply {S : Shape} (x : FVec Ideal S .f32) (i : S.Idx) : Host.exp x i = Ideal.exp (x i) := rfl

/-- The host's reduction of the rows of a matrix by max, at row p: the fold of max over the row's entries from the
    initial value. Stated over any extents, so that nothing of the matrix is ever enumerated. -/
theorem hostRowMax_apply {m n : ℕ} (src : FVec Ideal ⟨2, ![m, n]⟩ .f32) (init : (⟨0, ![]⟩ : Shape).Idx → EReal)
    (h' : (⟨2, ![m, n]⟩ : Shape).ReducesTo [(1 : Fin 2)] ⟨1, ![m]⟩) (h : (⟨2, ![m, n]⟩ : Shape).Reduces [(1 : Fin 2)] ⟨1, ![m]⟩)
    (hu : 0 < (⟨0, ![]⟩ : Shape).numel) (p : Fin m) :
    Host.reduce (FloatOps.maximumf (F := Ideal) (φ := .f32)) src init h' hu (ix1 p)
      = (Finset.univ : Finset (Fin n)).fold max (init (Shape.Idx.first hu)) (fun q => src (ix2 p q)) := by
  refine (Host.reduce_eq_fold_single FloatOps.maximumf src init h' h hu (ix1 p)).trans ?_
  show (Finset.univ : Finset (Fin n)).fold max (init (Shape.Idx.first hu)) (fun q => src (h.lift (ix1 p) q)) = _
  congr 1
  funext q
  exact congrArg src (Cert.Lib.ColumnLayout.lift_row h p q)

section Rows

variable (s : FVec Ideal S8192x8192 .f32)

/-- The row maxima at r: the fold of max from minus infinity over the row. -/
theorem rowMaxV_apply (r : Fin 8192) :
    rowMaxV s (ix1 r) = (Finset.univ : Finset (Fin 8192)).fold max ⊥ (fun c => s (ix2 r c)) := by
  unfold rowMaxV
  rw [maximumf_apply, hostRowMax_apply s _ reducesTo_S8192x8192_S8192_d1 reduces_rows h_S_ r,
    broadcastInDim_scalar_apply, constant_apply, constant_apply, ofBits_neg_inf_f32, max_eq_right bot_le]

/-- A vector of one value per row spread over the matrix reads the row's value. -/
theorem spreadV_apply (v : FVec Ideal S8192 .f32) (r c : Fin 8192) : spreadV v (ix2 r c) = v (ix1 r) := by
  unfold spreadV
  rw [spreadCol_apply, column_apply]

/-- The exponentials at (r, c). -/
theorem expV_apply (r c : Fin 8192) :
    expV s (ix2 r c)
      = Ideal.exp (s (ix2 r c) - (Finset.univ : Finset (Fin 8192)).fold max ⊥ (fun c' => s (ix2 r c'))) := by
  unfold expV
  rw [hostExp_apply, subf_apply, spreadV_apply, rowMaxV_apply]

/-- The row sums at r. -/
theorem rowSumV_apply (r : Fin 8192) : rowSumV s (ix1 r) = ∑ c : Fin 8192, s (ix2 r c) := by
  show Ideal.hostReduceAdd reducesTo_S8192x8192_S8192_d1 s (Ideal.ofBits .f32 0x00000000#32) (ix1 r) = _
  rw [Ideal.hostReduceAdd_single reducesTo_S8192x8192_S8192_d1 reduces_rows s _ (ix1 r), Ideal.ofBits_zero_f32, zero_add]
  show ∑ c : Fin 8192, s (reduces_rows.lift (ix1 r) c) = _
  exact Finset.sum_congr rfl fun c _ => congrArg s (Cert.Lib.ColumnLayout.lift_row reduces_rows r c)

/-- The quotients at (r, c). -/
theorem softV_apply (r c : Fin 8192) :
    softV s (ix2 r c) = Ideal.div (s (ix2 r c)) (∑ c' : Fin 8192, s (ix2 r c')) := by
  unfold softV
  rw [hostDivf_apply, spreadV_apply, rowSumV_apply]

end Rows

/-- Entry (r, d) of the composed term is the two-pass softmax row of the specification applied to the projected
    features. -/
theorem out_apply (A : IVec S8192x8192 32) (X : FVec Ideal S8192x128 .f32) (Ws : FVec Ideal S128x128 .f32)
    (a : FVec Ideal S256x1 .f32) (r : Fin 8192) (d : Fin 128) :
    out A X Ws a (ix2 r d) = Cert.Gat.refOut A X Ws a r d := by
  refine (PlainDot.dotGeneral_plain _ rfl none _ _ r d).trans ?_
  have hs : ∀ c : Fin 8192, scoreV A X Ws a (ix2 r c) = Cert.Gat.score A X Ws a r c := scoreV_apply A X Ws a r
  have he : ∀ c : Fin 8192, expV (scoreV A X Ws a) (ix2 r c)
      = Ideal.exp (Cert.Gat.score A X Ws a r c - Cert.Gat.rowMax A X Ws a r) := fun c => by
    rw [expV_apply, hs c, funext hs]
    rfl
  unfold Cert.Gat.refOut
  refine Finset.sum_congr rfl fun c _ => ?_
  rw [softV_apply, whV_apply, he c, funext he]

/-- On every device, from any memory with zero counters: every weakly fair execution of the reference terminates with
    the result buffer, entry by entry, at the two-pass softmax form of the specification over the arguments' launch
    contents, and the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24)
          = (fun i => Cert.Gat.refOut (m ((c.tc : Thread nD τ).loc main_arg0)) (m ((c.tc : Thread nD τ).loc main_arg1))
              (m ((c.tc : Thread nD τ).loc main_arg2)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c).1.trans (funext fun i => (congrArg _ (eq_ix2 i)).trans (out_apply _ _ _ _ (i 0) (i 1))), (h c).2⟩)
    (run_out (F := Ideal) m ρ)

end Cert.ReferenceIdeal.RefValue

end
-- ==== Proof.Assembly.lean ====
/-
  The five claims from the two value runs.

  Given that the idealized kernel's run ends with its result array at the one-pass form `kerOut` of its argument
  arrays (a hypothesis here), and since the idealized reference's run ends with its result array at the two-pass form
  `refOut` of its own, both leaving the arguments unchanged: the three frames are the generated frames of the two kernel programs and the
  reference's run with the result forgotten; the idealization rewrote nothing; and from memories that agree on the
  arguments the two results are equal entry by entry, because under the precondition every float input is a real and
  for real inputs the one-pass and the two-pass softmax-weighted sums agree.
-/
import proofs.«144379_j82592221102847_2_alg».proof.Defs
import proofs.«144379_j82592221102847_2_alg».proof.Proof.Gen.Kernel.Frame
import proofs.«144379_j82592221102847_2_alg».proof.Proof.Gen.KernelIdeal.Frame
import proofs.«144379_j82592221102847_2_alg».proof.Proof.Gen.ReferenceIdeal
import proofs.«144379_j82592221102847_2_alg».proof.Proof.Gen.Pre_finite_inputs
import proofs.«144379_j82592221102847_2_alg».proof.Proof.Softmax
import proofs.«144379_j82592221102847_2_alg».proof.Proof.FinitePre
import proofs.«144379_j82592221102847_2_alg».proof.Proof.RefRead

noncomputable section

namespace Cert.Proof.Assembly

open Idealize.ShloMosaic Idealize.SL.Sem

/-- The idealized kernel's value run: the result array ends at the one-pass form of the arguments. -/
def KernelRun : Prop :=
  ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩
          (fun r => ∀ c : Dev Cert.KernelIdeal.nD,
            r.2.mem ((c.tc : Thread Cert.KernelIdeal.nD Cert.KernelIdeal.τ).loc Cert.KernelIdeal.main_v7)
                = (fun i => Cert.Gat.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
                    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0) (i 1))
              ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
              ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
              ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
              ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

theorem frame_kernel : Cert.frame_Kernel := fun m ρ _ => Cert.Kernel.Gen.frame m ρ

theorem frame_kernelIdeal : Cert.frame_KernelIdeal := fun m ρ _ => Cert.KernelIdeal.Gen.frame m ρ

/-- The reference's frame is its value run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- From memories agreeing on the arguments both programs end with the one-pass form of the kernel's arguments:
    the kernel by its run, the reference because its two-pass form of equal, real-valued arguments is that value. -/
theorem algebraic (hK : KernelRun) : Cert.algebraic_KernelIdeal_ReferenceIdeal := by
  intro m ρ m' ρ' hpre hagree
  refine ⟨fun c => fun i => Cert.Gat.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0) (i 1), hK m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  obtain ⟨hX, hW, ha⟩ := Cert.Proof.FinitePre.inputs_real m hpre c
  funext i
  exact (Cert.Gat.kerOut_eq_refOut _ _ _ _ hX hW ha (i 0) (i 1)).symm

theorem claim_of
    (hK : ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩
          (fun r => ∀ c : Dev Cert.KernelIdeal.nD,
            r.2.mem ((c.tc : Thread Cert.KernelIdeal.nD Cert.KernelIdeal.τ).loc Cert.KernelIdeal.main_v7)
                = (fun i => Cert.Gat.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
                    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0) (i 1))
              ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
              ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
              ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
              ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :
    Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic hK⟩

end Cert.Proof.Assembly

end
-- ==== Proof.KPieces.lean ====
/-
  What one run of the body leaves in the three carried buffers (the running maximum, the running sum of weights, the
  running weighted sum) and, at the last column block, in the output block — each as the body's arithmetic applied to
  the blocks it loaded and to what the buffers held before.

  At the first column block of a row block the body first resets the three buffers (to -inf, 0, 0) and then updates
  them, so the update reads the reset values; at the other column blocks it updates what the previous point left; at
  the last column block it also divides the updated weighted sum by the updated sum of weights, row by row.
-/
import proofs.«144379_j82592221102847_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 2048 rows of the resident projected-feature block that the body loads at this point: rows `2048 * j ..` for column block `j`. -/
abbrev whRows (i : grid0.Coords) (x3 : Vec F S8192x128 .bf16) : Vec F S2048x128 .bf16 :=
  View.ld x3 (Rect.unit (s := S8192x128) (k0_off1 i) S2048x128.size (k0_off1_inb i))

/-! ## First column block: reset, then update -/

theorem max_first (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond0_0 i) (hc1 : ¬cond0_1 i)
    (x0 : Vec F S1024x1 .f32) (x1 : Vec F S1x2048 .f32) (x2 : Vec F S1024x2048 .i32) (x3 : Vec F S8192x128 .bf16) :
    sout0_A_0 c i arg2 harg2 arg3 harg3 arg4 harg4 arg5 harg5 arg6 harg6 arg7 harg7 arg8 harg8 arg9 harg9 hc0 hc1 x0 x1 x2 x3 = k0_pay2 (k0_pay8 x0 x1 x2 k0_pay4) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz, View.readCov_unit_zero (S := S1024x1) _ hz]
  simp only [View.readCov_unit_zero (S := S1024x128) _ hz, View.readCov_unit_zero (S := S1024x1) _ hz, View.readAt_eq_ld, harg2.read_unread, harg3.read_unread, harg4.read_unread, harg5.read_unread, harg7.read_unread, harg8.read_unread, harg9.read_unread, View.ld_unit_zero (S := S1024x1) hz, View.ld_unit_zero (S := S1x2048) hz, View.ld_unit_zero (S := S1024x2048) hz, View.ld_unit_zero (S := S1024x128) hz]
  try rfl

theorem sum_first (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond0_0 i) (hc1 : ¬cond0_1 i)
    (x0 : Vec F S1024x1 .f32) (x1 : Vec F S1x2048 .f32) (x2 : Vec F S1024x2048 .i32) (x3 : Vec F S8192x128 .bf16) :
    sout0_A_1 c i arg2 harg2 arg3 harg3 arg4 harg4 arg5 harg5 arg6 harg6 arg7 harg7 arg8 harg8 arg9 harg9 hc0 hc1 x0 x1 x2 x3 = k0_pay11 x0 x1 x2 k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz, View.readCov_unit_zero (S := S1024x1) _ hz]
  simp only [View.readCov_unit_zero (S := S1024x128) _ hz, View.readCov_unit_zero (S := S1024x1) _ hz, View.readAt_eq_ld, harg2.read_unread, harg3.read_unread, harg4.read_unread, harg5.read_unread, harg7.read_unread, harg8.read_unread, harg9.read_unread, View.ld_unit_zero (S := S1024x1) hz, View.ld_unit_zero (S := S1x2048) hz, View.ld_unit_zero (S := S1024x2048) hz, View.ld_unit_zero (S := S1024x128) hz]
  try rfl

theorem acc_first (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond0_0 i) (hc1 : ¬cond0_1 i)
    (x0 : Vec F S1024x1 .f32) (x1 : Vec F S1x2048 .f32) (x2 : Vec F S1024x2048 .i32) (x3 : Vec F S8192x128 .bf16) :
    sout0_A_2 c i arg2 harg2 arg3 harg3 arg4 harg4 arg5 harg5 arg6 harg6 arg7 harg7 arg8 harg8 arg9 harg9 hc0 hc1 x0 x1 x2 x3 = k0_pay1 (k0_pay9 x0 x1 x2 k0_pay4) (k0_pay10 x0 x1 x2 k0_pay4) (whRows i x3) k0_pay6 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x128) hz, View.readCov_unit_zero (S := S1024x128) _ hz]
  simp only [View.readCov_unit_zero (S := S1024x128) _ hz, View.readCov_unit_zero (S := S1024x1) _ hz, View.readAt_eq_ld, harg2.read_unread, harg3.read_unread, harg4.read_unread, harg5.read_unread, harg7.read_unread, harg8.read_unread, harg9.read_unread, View.ld_unit_zero (S := S1024x1) hz, View.ld_unit_zero (S := S1x2048) hz, View.ld_unit_zero (S := S1024x2048) hz, View.ld_unit_zero (S := S1024x128) hz]
  try rfl

/-! ## Middle column blocks: update what the point before left -/

theorem max_mid (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond0_0 i) (hc1 : ¬cond0_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    sout0_B_0 c i arg2 harg2 arg3 harg3 arg4 harg4 arg5 harg5 arg6 harg6 arg7 harg7 arg8 harg8 arg9 harg9 hc0 hc1 x0 x1 x2 x3 xs0 xs1 xs2 = k0_pay2 (k0_pay8 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readCov_unit_zero (S := S1024x128) _ hz, View.readCov_unit_zero (S := S1024x1) _ hz, View.readAt_eq_ld, harg2.read_unread, harg3.read_unread, harg4.read_unread, harg5.read_unread, harg7.read_unread, harg8.read_unread, harg9.read_unread, View.ld_unit_zero (S := S1024x1) hz, View.ld_unit_zero (S := S1x2048) hz, View.ld_unit_zero (S := S1024x2048) hz, View.ld_unit_zero (S := S1024x128) hz]
  try rfl

theorem sum_mid (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond0_0 i) (hc1 : ¬cond0_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    sout0_B_1 c i arg2 harg2 arg3 harg3 arg4 harg4 arg5 harg5 arg6 harg6 arg7 harg7 arg8 harg8 arg9 harg9 hc0 hc1 x0 x1 x2 x3 xs0 xs1 xs2 = k0_pay11 x0 x1 x2 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readCov_unit_zero (S := S1024x128) _ hz, View.readCov_unit_zero (S := S1024x1) _ hz, View.readAt_eq_ld, harg2.read_unread, harg3.read_unread, harg4.read_unread, harg5.read_unread, harg7.read_unread, harg8.read_unread, harg9.read_unread, View.ld_unit_zero (S := S1024x1) hz, View.ld_unit_zero (S := S1x2048) hz, View.ld_unit_zero (S := S1024x2048) hz, View.ld_unit_zero (S := S1024x128) hz]
  try rfl

theorem acc_mid (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond0_0 i) (hc1 : ¬cond0_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    sout0_B_2 c i arg2 harg2 arg3 harg3 arg4 harg4 arg5 harg5 arg6 harg6 arg7 harg7 arg8 harg8 arg9 harg9 hc0 hc1 x0 x1 x2 x3 xs0 xs1 xs2 = k0_pay1 (k0_pay9 x0 x1 x2 xs0) (k0_pay10 x0 x1 x2 xs0) (whRows i x3) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readCov_unit_zero (S := S1024x128) _ hz, View.readCov_unit_zero (S := S1024x1) _ hz, View.readAt_eq_ld, harg2.read_unread, harg3.read_unread, harg4.read_unread, harg5.read_unread, harg7.read_unread, harg8.read_unread, harg9.read_unread, View.ld_unit_zero (S := S1024x1) hz, View.ld_unit_zero (S := S1x2048) hz, View.ld_unit_zero (S := S1024x2048) hz, View.ld_unit_zero (S := S1024x128) hz]
  try rfl

/-! ## Last column block: update, then divide -/

theorem max_last (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond0_0 i) (hc1 : cond0_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    sout0_C_0 c i arg2 harg2 arg3 harg3 arg4 harg4 arg5 harg5 arg6 harg6 arg7 harg7 arg8 harg8 arg9 harg9 hc0 hc1 x0 x1 x2 x3 xs0 xs1 xs2 = k0_pay2 (k0_pay8 x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readCov_unit_zero (S := S1024x128) _ hz, View.readCov_unit_zero (S := S1024x1) _ hz, View.readAt_eq_ld, harg2.read_unread, harg3.read_unread, harg4.read_unread, harg5.read_unread, harg7.read_unread, harg8.read_unread, harg9.read_unread, View.ld_unit_zero (S := S1024x1) hz, View.ld_unit_zero (S := S1x2048) hz, View.ld_unit_zero (S := S1024x2048) hz, View.ld_unit_zero (S := S1024x128) hz]
  try rfl

theorem sum_last (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond0_0 i) (hc1 : cond0_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    sout0_C_1 c i arg2 harg2 arg3 harg3 arg4 harg4 arg5 harg5 arg6 harg6 arg7 harg7 arg8 harg8 arg9 harg9 hc0 hc1 x0 x1 x2 x3 xs0 xs1 xs2 = k0_pay11 x0 x1 x2 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readCov_unit_zero (S := S1024x128) _ hz, View.readCov_unit_zero (S := S1024x1) _ hz, View.readAt_eq_ld, harg2.read_unread, harg3.read_unread, harg4.read_unread, harg5.read_unread, harg7.read_unread, harg8.read_unread, harg9.read_unread, View.ld_unit_zero (S := S1024x1) hz, View.ld_unit_zero (S := S1x2048) hz, View.ld_unit_zero (S := S1024x2048) hz, View.ld_unit_zero (S := S1024x128) hz]
  try rfl

theorem acc_last (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond0_0 i) (hc1 : cond0_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    sout0_C_2 c i arg2 harg2 arg3 harg3 arg4 harg4 arg5 harg5 arg6 harg6 arg7 harg7 arg8 harg8 arg9 harg9 hc0 hc1 x0 x1 x2 x3 xs0 xs1 xs2 = k0_pay1 (k0_pay9 x0 x1 x2 xs0) (k0_pay10 x0 x1 x2 xs0) (whRows i x3) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readCov_unit_zero (S := S1024x128) _ hz, View.readCov_unit_zero (S := S1024x1) _ hz, View.readAt_eq_ld, harg2.read_unread, harg3.read_unread, harg4.read_unread, harg5.read_unread, harg7.read_unread, harg8.read_unread, harg9.read_unread, View.ld_unit_zero (S := S1024x1) hz, View.ld_unit_zero (S := S1x2048) hz, View.ld_unit_zero (S := S1024x2048) hz, View.ld_unit_zero (S := S1024x128) hz]
  try rfl

theorem out_last (c : Dev nD) (i : grid0.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond0_0 i) (hc1 : cond0_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    out0_C_4 c i arg2 harg2 arg3 harg3 arg4 harg4 arg5 harg5 arg6 harg6 arg7 harg7 arg8 harg8 arg9 harg9 hc0 hc1 x0 x1 x2 x3 xs0 xs1 xs2 = k0_pay3 (k0_pay1 (k0_pay9 x0 x1 x2 xs0) (k0_pay10 x0 x1 x2 xs0) (whRows i x3) xs2) (k0_pay11 x0 x1 x2 xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readCov_unit_zero (S := S1024x128) _ hz, View.readCov_unit_zero (S := S1024x1) _ hz, View.readAt_eq_ld, harg2.read_unread, harg3.read_unread, harg4.read_unread, harg5.read_unread, harg7.read_unread, harg8.read_unread, harg9.read_unread, View.ld_unit_zero (S := S1024x1) hz, View.ld_unit_zero (S := S1x2048) hz, View.ld_unit_zero (S := S1024x2048) hz, View.ld_unit_zero (S := S1024x128) hz]
  try rfl

end Cert.KernelIdeal.Pieces
end
-- ==== Proof.KPay.lean ====
/-
  The body's arithmetic at one entry, on the extended reals.

  With `x0` the block of source terms (a column of 1024 rows), `x1` the block of target terms (a row of 2048 lanes) and
  `x2` the block of the adjacency matrix, the score of the local pair (p, q) is the rectified sum `x0 p + x1 q` on an
  edge and the fill value off it. The new maximum of row `p` is the old one against the largest score of the row in the
  block; the rescaling factor is `exp (old - new)`; a weight is `exp (score - new)`; the new sum is the rescaled old sum
  plus the row's weights; the new weighted sum is the rescaled old one plus the weights against the 2048 loaded rows of
  projected features; and the last column block divides the weighted sum by the sum, row by row.
-/
import proofs.«144379_j82592221102847_2_alg».proof.Proof.Gen.KernelIdeal.Skeleton
import proofs.«144379_j82592221102847_2_alg».proof.Proof.Spec
import proofs.«144379_j82592221102847_2_alg».proof.Proof.LibColumnLayout
import proofs.«144379_j82592221102847_2_alg».proof.Proof.LibPlainDot
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx Cert.Lib.ColumnLayout

variable (x0 : Vec Ideal S1024x1 .f32) (x1 : Vec Ideal S1x2048 .f32) (x2 : Vec Ideal S1024x2048 .i32)

/-- The score of the local pair (p, q) of a block. -/
def sc (p : Fin 1024) (q : Fin 2048) : EReal :=
  Scalar.select (IntOp.cmpi .sgt (x2 (ix2 p q)) 0#32) (Cert.Gat.lrelu (x0 (ix2 p (0 : Fin 1)) + x1 (ix2 (0 : Fin 1) q)))
    (Ideal.ofBits .f32 0xD9FFCB9E#32)

theorem negInf_word : Ideal.ofBits .f32 0xFF800000#32 = ⊥ := by
  simp [Ideal.ofBits, Ideal.ieee]

theorem scores_apply (p : Fin 1024) (q : Fin 2048) : k0_pay7 (F := Ideal) x0 x1 x2 (ix2 p q) = sc x0 x1 x2 p q := by
  unfold k0_pay7 sc Cert.Gat.lrelu
  simp only [select_apply, cmpf_apply, mulf_apply, addf_apply, broadcast_apply, shapeCast_self,
    broadcastTo_a1_ab_apply, broadcastTo_1b_ab_apply]
  rfl

theorem newMax_apply (v20 : Vec Ideal S1024x1 .f32) (p : Fin 1024) :
    k0_pay8 (F := Ideal) x0 x1 x2 v20 (ix2 p (0 : Fin 1))
      = max (v20 (ix2 p (0 : Fin 1))) ((Finset.univ : Finset (Fin 2048)).fold max ⊥ (fun q => sc x0 x1 x2 p q)) := by
  unfold k0_pay8
  dsimp only
  refine Eq.trans (maximumf_apply _ _ _) ?_
  refine congrArg (max (v20 (ix2 p (0 : Fin 1)))) ?_
  refine (shapeCast_a_a1_apply _ _ p (0 : Fin 1)).trans ?_
  refine (rowMax_apply (k0_pay7 (F := Ideal) x0 x1 x2) 0xFF800000#32 reduces_S1024x2048_S1024 (.inl rfl) rfl p).trans ?_
  rw [negInf_word]
  exact congrArg ((Finset.univ : Finset (Fin 2048)).fold max ⊥) (funext fun q => scores_apply x0 x1 x2 p q)

theorem scale_apply (v20 : Vec Ideal S1024x1 .f32) (p : Fin 1024) :
    k0_pay9 (F := Ideal) x0 x1 x2 v20 (ix2 p (0 : Fin 1))
      = Ideal.exp (v20 (ix2 p (0 : Fin 1)) - k0_pay8 (F := Ideal) x0 x1 x2 v20 (ix2 p (0 : Fin 1))) := by
  unfold k0_pay9
  rfl

theorem weights_apply (v20 : Vec Ideal S1024x1 .f32) (p : Fin 1024) (q : Fin 2048) :
    k0_pay10 (F := Ideal) x0 x1 x2 v20 (ix2 p q)
      = Ideal.exp (sc x0 x1 x2 p q - k0_pay8 (F := Ideal) x0 x1 x2 v20 (ix2 p (0 : Fin 1))) := by
  unfold k0_pay10
  show Ideal.exp (k0_pay7 (F := Ideal) x0 x1 x2 (ix2 p q) - broadcastTo S1024x2048 (k0_pay8 (F := Ideal) x0 x1 x2 v20) broadcasts_S1024x1_S1024x2048 (ix2 p q)) = _
  rw [scores_apply, broadcastTo_a1_ab_apply]

theorem newSum_apply (v20 v29 : Vec Ideal S1024x1 .f32) (p : Fin 1024) :
    k0_pay11 (F := Ideal) x0 x1 x2 v20 v29 (ix2 p (0 : Fin 1))
      = k0_pay9 (F := Ideal) x0 x1 x2 v20 (ix2 p (0 : Fin 1)) * v29 (ix2 p (0 : Fin 1))
        + ∑ q : Fin 2048, k0_pay10 (F := Ideal) x0 x1 x2 v20 (ix2 p q) := by
  unfold k0_pay11
  simp only [shapeCast_self, addf_apply, mulf_apply, shapeCast_a_a1_apply]
  exact congrArg (k0_pay9 (F := Ideal) x0 x1 x2 v20 (ix2 p (0 : Fin 1)) * v29 (ix2 p (0 : Fin 1)) + ·)
    (rowSum_apply (k0_pay10 (F := Ideal) x0 x1 x2 v20) 0x00000000#32 reduces_S1024x2048_S1024 (.inl rfl) rfl p)

theorem newAcc_apply (v25 : FVec Ideal S1024x1 .f32) (v28 : FVec Ideal S1024x2048 .f32) (v40 : Vec Ideal S2048x128 .bf16)
    (v42 : Vec Ideal S1024x128 .f32) (p : Fin 1024) (d : Fin 128) :
    k0_pay1 (F := Ideal) v25 v28 v40 v42 (ix2 p d)
      = v25 (ix2 p (0 : Fin 1)) * v42 (ix2 p d) + ∑ q : Fin 2048, v28 (ix2 p q) * v40 (ix2 q d) := by
  unfold k0_pay1
  simp only [shapeCast_self, addf_apply, mulf_apply, broadcastTo_a1_ab_apply]
  exact congrArg (v25 (ix2 p (0 : Fin 1)) * v42 (ix2 p d) + ·)
    (PlainDot.matmul_plain dot_S1024x2048_S2048x128_S1024x128_1_0_0_1_n_n rfl none (truncf .bf16 v28 bitsLt_bf16_f32) v40 p d)

theorem ratio_apply (v57 : Vec Ideal S1024x128 .f32) (v58 : Vec Ideal S1024x1 .f32) (p : Fin 1024) (d : Fin 128) :
    k0_pay3 (F := Ideal) v57 v58 (ix2 p d) = Ideal.div (v57 (ix2 p d)) (v58 (ix2 p (0 : Fin 1))) := by
  unfold k0_pay3
  simp only [divf_apply, broadcastTo_a1_ab_apply]

theorem negInf_apply (i : S1024x1.Idx) : k0_pay4 (F := Ideal) i = ⊥ := by
  unfold k0_pay4
  simp only [shapeCast_self, broadcast_apply]
  exact negInf_word

theorem zeroCol_apply (i : S1024x1.Idx) : k0_pay5 (F := Ideal) i = 0 := by
  unfold k0_pay5
  simp only [shapeCast_self, broadcast_apply]
  exact Ideal.ofBits_zero_f32

theorem zeroBlk_apply (i : S1024x128.Idx) : k0_pay6 (F := Ideal) i = 0 := by
  unfold k0_pay6
  simp only [shapeCast_self, broadcast_apply]
  exact Ideal.ofBits_zero_f32

end Cert.KernelIdeal.Pay

end
-- ==== Proof.KBlocks.lean ====
/-
  Which entry of the whole arrays each entry of a point's blocks is.

  The grid has 8 row blocks of 1024 rows and, inside each, 4 column blocks of 2048 columns; point `t` is row block
  `t / 4` and column block `t % 4`. At that point local row `p` is global row `1024 * (t / 4) + p` and local lane `q` is
  global column `2048 * (t % 4) + q`: the block of source terms is rows of the column `e1`, the block of target terms
  lanes of the row `e2`, the adjacency block the corresponding rectangle, and the 2048 rows the body loads from the
  resident block of projected features are the rows of those global columns.
-/
import proofs.«144379_j82592221102847_2_alg».proof.Proof.Gen.KernelIdeal.Frame
import proofs.«144379_j82592221102847_2_alg».proof.Proof.KPieces
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ)

theorem lt32 (t : Fin cfg0.N) : t.val < 32 := lt_of_lt_of_eq t.isLt (show cfg0.N = 32 from N_0)

/-- The printed index maps over the grid: window 0 and the output follow the row block, window 1 the column block,
    window 2 both, window 3 stays; and the body's own column-block coordinate. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = t.val % 4
    ∧ win0_3.index t (0 : Fin 2) = 0 ∧ win0_3.index t (1 : Fin 2) = 0
    ∧ win0_4.index t (0 : Fin 2) = t.val / 4 ∧ win0_4.index t (1 : Fin 2) = 0
    ∧ (grid0.coords t 1).val = t.val % 4 :=
  (by decide +kernel : ∀ t : Fin grid0.N, _)

/-- The global row of local row `p` at point `t`. -/
def grow (t : Fin cfg0.N) (p : Fin 1024) : Fin 8192 :=
  ⟨1024 * (t.val / 4) + p.val, by have := lt32 t; have := p.isLt; omega⟩

/-- The global column of local lane `q` at point `t`. -/
def gcol (t : Fin cfg0.N) (q : Fin 2048) : Fin 8192 :=
  ⟨2048 * (t.val % 4) + q.val, by have := q.isLt; omega⟩

theorem src_block (c : Dev nD) (t : Fin cfg0.N) (p : Fin 1024) :
    iblk m c 0 t (ix2 p (0 : Fin 1)) = V m c main_v2 (ix2 (grow t p) (0 : Fin 1)) := by
  obtain ⟨e00, e01, -⟩ := idx_facts t
  show V m c main_v2 (((cfg0.win 0).blk t).view.emb (ix2 p (0 : Fin 1))) = _
  refine congrArg _ (funext fun a => Fin.ext ?_)
  match a with
  | ⟨0, _⟩ => show win0_0.index t (0 : Fin 2) * 1024 + 1 * p.val = 1024 * (t.val / 4) + p.val; omega
  | ⟨1, _⟩ => show win0_0.index t (1 : Fin 2) * 1 + 1 * 0 = 0; omega

theorem dst_block (c : Dev nD) (t : Fin cfg0.N) (q : Fin 2048) :
    iblk m c 1 t (ix2 (0 : Fin 1) q) = V m c main_v5 (ix2 (0 : Fin 1) (gcol t q)) := by
  obtain ⟨-, -, e10, e11, -⟩ := idx_facts t
  show V m c main_v5 (((cfg0.win 1).blk t).view.emb (ix2 (0 : Fin 1) q)) = _
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * q.val = 2048 * (t.val % 4) + q.val; omega

theorem adj_block (c : Dev nD) (t : Fin cfg0.N) (p : Fin 1024) (q : Fin 2048) :
    iblk m c 2 t (ix2 p q) = V m c main_arg0 (ix2 (grow t p) (gcol t q)) := by
  obtain ⟨-, -, -, -, e20, e21, -⟩ := idx_facts t
  show V m c main_arg0 (((cfg0.win 2).blk t).view.emb (ix2 p q)) = _
  refine congrArg _ (funext fun a => Fin.ext ?_)
  match a with
  | ⟨0, _⟩ => show win0_2.index t (0 : Fin 2) * 1024 + 1 * p.val = 1024 * (t.val / 4) + p.val; omega
  | ⟨1, _⟩ => show win0_2.index t (1 : Fin 2) * 2048 + 1 * q.val = 2048 * (t.val % 4) + q.val; omega

theorem wh_block (c : Dev nD) (t : Fin cfg0.N) (q : Fin 2048) (d : Fin 128) :
    Pieces.whRows (grid0.coords t) (iblk m c 3 t) (ix2 q d) = V m c main_v6 (ix2 (gcol t q) d) := by
  obtain ⟨-, -, -, -, -, -, e30, e31, -, -, ec⟩ := idx_facts t
  have hoff := k0_off1_eq (grid0.coords t)
  show V m c main_v6 (((cfg0.win 3).blk t).view.emb ((Rect.unit (s := S8192x128) (k0_off1 (grid0.coords t)) S2048x128.size (k0_off1_inb (grid0.coords t))).idx (ix2 q d))) = _
  refine congrArg _ (funext fun a => Fin.ext ?_)
  match a with
  | ⟨0, _⟩ =>
    show win0_3.index t (0 : Fin 2) * 8192 + 1 * (k0_off1 (grid0.coords t) 0 + 1 * q.val) = 2048 * (t.val % 4) + q.val
    rw [hoff]; show win0_3.index t (0 : Fin 2) * 8192 + 1 * (2048 * (grid0.coords t 1).val + 1 * q.val) = _; omega
  | ⟨1, _⟩ =>
    show win0_3.index t (1 : Fin 2) * 128 + 1 * (k0_off1 (grid0.coords t) 1 + 1 * d.val) = d.val
    rw [hoff]; show win0_3.index t (1 : Fin 2) * 128 + 1 * (0 + 1 * d.val) = _; omega

end Cert.KernelIdeal.Blocks

end
-- ==== Proof.KHost.lean ====
/-
  The host operations before the region, read at an index.

  Before its region the program computes, from the features `X`, the weights `Ws` and the attention vector `a`:
  the projected features `X · Ws`; the two attention terms, the projected features against rows 0..127 and rows
  128..255 of `a`; the second of them laid out as a row `[1, 8192]` instead of a column `[8192, 1]`; and a copy of
  the projected features in a narrower format, which on the extended reals is the same array. Entry by entry these are
  the specification's `wh`, `e1` and `e2`: a matrix product at `(r, d)` is the sum over the contracted coordinate, a
  slice of rows from `o` reads row `o + k`, and the column entry `(k, 0)` and the row entry `(0, k)` have the same
  row-major position `k`.
-/
import proofs.«144379_j82592221102847_2_alg».proof.Proof.Gen.KernelIdeal.Frame
import proofs.«144379_j82592221102847_2_alg».proof.Proof.Spec
import proofs.«144379_j82592221102847_2_alg».proof.Proof.LibPlainDot
import Idealize.ShloMosaic.Lib.StableHlo.Run
import Idealize.ShloMosaic.Lib.Pipeline.Value
import Idealize.ShloMosaic.Lib.ValueLayout

noncomputable section

open scoped BigOperators

namespace Cert.KernelIdeal.HostVals

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (c : Dev nD)

/-- The features as launched on core `c`. -/
abbrev argX : FVec Ideal S8192x128 .f32 := m ((c : Thread nD τ).loc main_arg1)
/-- The weights as launched on core `c`. -/
abbrev argW : FVec Ideal S128x128 .f32 := m ((c : Thread nD τ).loc main_arg2)
/-- The attention vector as launched on core `c`. -/
abbrev argA : FVec Ideal S256x1 .f32 := m ((c : Thread nD τ).loc main_arg3)

/-- The product of the features and the weights, as an array. -/
abbrev whArr : FVec Ideal S8192x128 .f32 :=
  Host.dotGeneral (F := Ideal) dot_S8192x128_S128x128_S8192x128_1_0_0_1_n_n none (argX m c) (argW m c)

/-- The projected features as the first host operation leaves them. -/
theorem V_v0 : (V m c main_v0 : FVec Ideal S8192x128 .f32) = whArr m c := by
  dsimp only [Gen.V, Gen.hostOps0]; after_results <;> rfl

/-- The first attention term: the projected features against the first 128 rows of the attention vector. -/
theorem V_v2 :
    (V m c main_v2 : FVec Ideal S8192x1 .f32)
      = Host.dotGeneral (F := Ideal) dot_S8192x128_S128x1_S8192x1_1_0_0_1_n_n none (whArr m c)
          (extractStridedSlice S128x1 ![0, 0] (argA m c) Facts₀.slices_S256x1_S128x1_0_0 : FVec Ideal S128x1 .f32) := by
  dsimp only [Gen.V, Gen.hostOps0]; after_results <;> rfl

/-- The second attention term, as a row: the column of the projected features against the last 128 rows of the
    attention vector, recast from `[8192, 1]` to `[1, 8192]`. -/
theorem V_v5 :
    (V m c main_v5 : FVec Ideal S1x8192 .f32)
      = shapeCast S1x8192
          (Host.dotGeneral (F := Ideal) dot_S8192x128_S128x1_S8192x1_1_0_0_1_n_n none (whArr m c)
            (extractStridedSlice S128x1 ![128, 0] (argA m c) Facts₀.slices_S256x1_S128x1_128_0 : FVec Ideal S128x1 .f32)
            : FVec Ideal S8192x1 .f32)
          Facts₀.shapeCasts_S8192x1_S1x8192 := by
  dsimp only [Gen.V, Gen.hostOps0]; after_results <;> rfl

/-- The projected features in the narrower format: on the extended reals the same array. -/
theorem V_v6 : (V m c main_v6 : FVec Ideal S8192x128 .bf16) = truncf .bf16 (whArr m c) Facts₀.bitsLt_bf16_f32 := by
  dsimp only [Gen.V, Gen.hostOps0]; after_results <;> rfl

/-- The product of the features and the weights at `(r, d)` is the specification's projected feature. -/
theorem whArr_apply (r : Fin 8192) (d : Fin 128) :
    whArr m c (ix2 r d) = Cert.Gat.wh (argX m c) (argW m c) r d :=
  PlainDot.dotGeneral_plain _ rfl none _ _ r d

theorem wh_val (r : Fin 8192) (d : Fin 128) :
    V m c main_v6 (ix2 r d)
      = Cert.Gat.wh (m ((c : Thread nD τ).loc main_arg1)) (m ((c : Thread nD τ).loc main_arg2)) r d := by
  rw [V_v6 m c]
  exact whArr_apply m c r d

theorem e1_val (r : Fin 8192) :
    V m c main_v2 (ix2 r (0 : Fin 1))
      = Cert.Gat.e1 (m ((c : Thread nD τ).loc main_arg1)) (m ((c : Thread nD τ).loc main_arg2))
          (m ((c : Thread nD τ).loc main_arg3)) r := by
  rw [V_v2 m c]
  refine (PlainDot.dotGeneral_plain _ rfl none _ _ r (0 : Fin 1)).trans ?_
  unfold Cert.Gat.e1
  refine Finset.sum_congr rfl fun k _ => ?_
  rw [whArr_apply m c r k, slice2_axis0_eq]
  unfold Cert.Gat.aLo
  congr 3
  exact Fin.ext (Nat.zero_add _)

theorem e2_val (k : Fin 8192) :
    V m c main_v5 (ix2 (0 : Fin 1) k)
      = Cert.Gat.e2 (m ((c : Thread nD τ).loc main_arg1)) (m ((c : Thread nD τ).loc main_arg2))
          (m ((c : Thread nD τ).loc main_arg3)) k := by
  rw [V_v5 m c]
  refine (shapeCast_apply _ _ (ix2 (0 : Fin 1) k) (ix2 k (0 : Fin 1)) ?_).trans ?_
  · rw [Shape.rowMajor_val_two, Shape.rowMajor_val_two]
    show k.val * 1 + 0 = 0 * 8192 + k.val
    omega
  refine (PlainDot.dotGeneral_plain _ rfl none _ _ k (0 : Fin 1)).trans ?_
  unfold Cert.Gat.e2
  refine Finset.sum_congr rfl fun j _ => ?_
  rw [whArr_apply m c k j, slice2_axis0_eq]
  rfl

end Cert.KernelIdeal.HostVals

end
-- ==== Proof.KInv.lean ====
/-
  The carried buffers after every grid point, row by row, are the one-pass state of the specification.

  At point `t` (row block `t / 4`, column block `j = t % 4`) the score of the local pair (p, q) is the specification's
  score of global row `1024 * (t / 4) + p` and global column `2048 * j + q`. Hence one run of the body takes the state of
  each row after `j` column blocks — running maximum, running sum of weights, running weighted sum — to its state after
  `j + 1`: exactly the specification's recurrence. The first column block of a row block starts from the reset values
  (-inf, 0, 0), the state after no block; every other point starts from what the point before left, which is the same
  row block. By induction on the point, after point `t` the three buffers hold the state after `t % 4 + 1` blocks, and at
  the last column block the output block holds the weighted sum divided by the sum of weights: the one-pass result.
-/
import proofs.«144379_j82592221102847_2_alg».proof.Proof.Gen.KernelIdeal.Frame
import proofs.«144379_j82592221102847_2_alg».proof.Proof.Spec
import proofs.«144379_j82592221102847_2_alg».proof.Proof.KPieces
import proofs.«144379_j82592221102847_2_alg».proof.Proof.KPay
import proofs.«144379_j82592221102847_2_alg».proof.Proof.KBlocks
import proofs.«144379_j82592221102847_2_alg».proof.Proof.KHost
import Idealize.ShloMosaic.Lib.Pipeline.Value

noncomputable section

open scoped BigOperators

namespace Cert.KernelIdeal.Inv

open Cert.KernelIdeal Cert.KernelIdeal.Gen Idealize.ShloMosaic Idealize.ShloMosaic.TcCoe Idealize.ShloMosaic.ValueIdx
open Cert.KernelIdeal.Blocks

variable (m : (ℓ : Loc nD τ sig) → Buf (Elt Ideal) ℓ) (c : Dev nD)

/-- The one-pass state of global row `r` after `j` column blocks, of this memory's argument arrays. -/
abbrev St (r : Fin 8192) (j : ℕ) : EReal × EReal × (Fin 128 → EReal) :=
  Cert.Gat.st (m ((c : Thread nD τ).loc main_arg0)) (m ((c : Thread nD τ).loc main_arg1)) (m ((c : Thread nD τ).loc main_arg2))
    (m ((c : Thread nD τ).loc main_arg3)) r j

theorem gcol_eq (t : Fin cfg0.N) (q : Fin 2048) : gcol t q = Cert.Gat.col (t.val % 4) q :=
  Fin.ext (by
    show 2048 * (t.val % 4) + q.val = (2048 * (t.val % 4) + q.val) % 8192
    have := q.isLt
    omega)

/-- The score of a local pair of point `t`'s blocks is the specification's score of the global pair. -/
theorem score_block (t : Fin cfg0.N) (p : Fin 1024) (q : Fin 2048) :
    Pay.sc (iblk m c 0 t) (iblk m c 1 t) (iblk m c 2 t) p q
      = Cert.Gat.score (m ((c : Thread nD τ).loc main_arg0)) (m ((c : Thread nD τ).loc main_arg1)) (m ((c : Thread nD τ).loc main_arg2))
          (m ((c : Thread nD τ).loc main_arg3)) (grow t p) (Cert.Gat.col (t.val % 4) q) := by
  unfold Pay.sc Cert.Gat.score
  rw [src_block, dst_block, adj_block, HostVals.e1_val, HostVals.e2_val, V_main_arg0, gcol_eq]

theorem keep_apply (v : FVec Ideal S1024x1 .f32) (i : S1024x1.Idx) : k0_pay2 (F := Ideal) v i = v i := by
  unfold k0_pay2
  exact congrFun (shapeCast_self v _) i

/-- ONE RUN OF THE BODY at point `t`, row `p`: from the state after `t % 4` blocks to the state after `t % 4 + 1`. -/
theorem step (t : Fin cfg0.N) (xs0 xs1 : Vec Ideal S1024x1 .f32) (xs2 : Vec Ideal S1024x128 .f32) (p : Fin 1024)
    (e0 : xs0 (ix2 p (0 : Fin 1)) = (St m c (grow t p) (t.val % 4)).1)
    (e1 : xs1 (ix2 p (0 : Fin 1)) = (St m c (grow t p) (t.val % 4)).2.1)
    (e2 : ∀ d : Fin 128, xs2 (ix2 p d) = (St m c (grow t p) (t.val % 4)).2.2 d) :
    k0_pay2 (F := Ideal) (k0_pay8 (iblk m c 0 t) (iblk m c 1 t) (iblk m c 2 t) xs0) (ix2 p (0 : Fin 1)) = (St m c (grow t p) (t.val % 4 + 1)).1
    ∧ k0_pay11 (F := Ideal) (iblk m c 0 t) (iblk m c 1 t) (iblk m c 2 t) xs0 xs1 (ix2 p (0 : Fin 1)) = (St m c (grow t p) (t.val % 4 + 1)).2.1
    ∧ ∀ d : Fin 128, k0_pay1 (F := Ideal) (k0_pay9 (iblk m c 0 t) (iblk m c 1 t) (iblk m c 2 t) xs0) (k0_pay10 (iblk m c 0 t) (iblk m c 1 t) (iblk m c 2 t) xs0)
          (Pieces.whRows (grid0.coords t) (iblk m c 3 t)) xs2 (ix2 p d) = (St m c (grow t p) (t.val % 4 + 1)).2.2 d := by
  have hmax : k0_pay8 (F := Ideal) (iblk m c 0 t) (iblk m c 1 t) (iblk m c 2 t) xs0 (ix2 p (0 : Fin 1))
      = max (St m c (grow t p) (t.val % 4)).1
          (Cert.Gat.blkMax (m ((c : Thread nD τ).loc main_arg0)) (m ((c : Thread nD τ).loc main_arg1)) (m ((c : Thread nD τ).loc main_arg2))
            (m ((c : Thread nD τ).loc main_arg3)) (grow t p) (t.val % 4)) := by
    rw [Pay.newMax_apply, e0]
    unfold Cert.Gat.blkMax
    exact congrArg (max _) (congrArg ((Finset.univ : Finset (Fin 2048)).fold max ⊥) (funext fun q => score_block m c t p q))
  refine ⟨?_, ?_, fun d => ?_⟩
  · rw [keep_apply, hmax]
    rfl
  · rw [Pay.newSum_apply, Pay.scale_apply, hmax, e0, e1]
    refine congrArg (_ + ·) (Finset.sum_congr rfl fun q _ => ?_)
    rw [Pay.weights_apply, hmax, score_block]
  · rw [Pay.newAcc_apply, Pay.scale_apply, hmax, e0, e2]
    refine congrArg (_ + ·) (Finset.sum_congr rfl fun q _ => ?_)
    rw [Pay.weights_apply, hmax, score_block, wh_block, HostVals.wh_val, gcol_eq]

/-- What the point before `t` left (read at a point that is not the first of its row block). -/
abbrev prev (t : Fin cfg0.N) : Vec Ideal S1024x128 .f32 × Vec Ideal S1024x1 .f32 × Vec Ideal S1024x1 .f32 × Vec Ideal S1024x128 .f32 :=
  outsAt0 m c (t.val - 1) (Nat.lt_of_le_of_lt (Nat.sub_le _ _) t.isLt)

/-- The three buffers after a first column block, as the body's arithmetic of the reset values. -/
theorem scratch_first (t : Fin cfg0.N) (h0 : t.val % 4 = 0) (h1 : ¬t.val % 4 = 3) :
    (outsAt0 m c t.val t.isLt).2.1 = k0_pay2 (k0_pay8 (iblk m c 0 t) (iblk m c 1 t) (iblk m c 2 t) (k0_pay4 (F := Ideal)))
    ∧ (outsAt0 m c t.val t.isLt).2.2.1 = k0_pay11 (iblk m c 0 t) (iblk m c 1 t) (iblk m c 2 t) (k0_pay4 (F := Ideal)) (k0_pay5 (F := Ideal))
    ∧ (outsAt0 m c t.val t.isLt).2.2.2 = k0_pay1 (k0_pay9 (iblk m c 0 t) (iblk m c 1 t) (iblk m c 2 t) (k0_pay4 (F := Ideal))) (k0_pay10 (iblk m c 0 t) (iblk m c 1 t) (iblk m c 2 t) (k0_pay4 (F := Ideal)))
        (Pieces.whRows (grid0.coords t) (iblk m c 3 t)) (k0_pay6 (F := Ideal)) := by
  have e := outsAt0_A m c t h0 h1
  rw [Pieces.max_first (F := Ideal), Pieces.sum_first (F := Ideal), Pieces.acc_first (F := Ideal)] at e
  exact ⟨congrArg (fun x => x.2.1) e, congrArg (fun x => x.2.2.1) e, congrArg (fun x => x.2.2.2) e⟩

/-- The three buffers after a middle column block, as the body's arithmetic of what the point before left. -/
theorem scratch_mid (t : Fin cfg0.N) (h0 : ¬t.val % 4 = 0) (h1 : ¬t.val % 4 = 3) :
    (outsAt0 m c t.val t.isLt).2.1 = k0_pay2 (k0_pay8 (iblk m c 0 t) (iblk m c 1 t) (iblk m c 2 t) (prev m c t).2.1)
    ∧ (outsAt0 m c t.val t.isLt).2.2.1 = k0_pay11 (iblk m c 0 t) (iblk m c 1 t) (iblk m c 2 t) (prev m c t).2.1 (prev m c t).2.2.1
    ∧ (outsAt0 m c t.val t.isLt).2.2.2 = k0_pay1 (k0_pay9 (iblk m c 0 t) (iblk m c 1 t) (iblk m c 2 t) (prev m c t).2.1) (k0_pay10 (iblk m c 0 t) (iblk m c 1 t) (iblk m c 2 t) (prev m c t).2.1)
        (Pieces.whRows (grid0.coords t) (iblk m c 3 t)) (prev m c t).2.2.2 := by
  have e := outsAt0_B m c t h0 h1
  rw [Pieces.max_mid (F := Ideal), Pieces.sum_mid (F := Ideal), Pieces.acc_mid (F := Ideal)] at e
  exact ⟨congrArg (fun x => x.2.1) e, congrArg (fun x => x.2.2.1) e, congrArg (fun x => x.2.2.2) e⟩

/-- The three buffers and the output block after a last column block. -/
theorem scratch_last (t : Fin cfg0.N) (h0 : ¬t.val % 4 = 0) (h1 : t.val % 4 = 3) :
    ((outsAt0 m c t.val t.isLt).2.1 = k0_pay2 (k0_pay8 (iblk m c 0 t) (iblk m c 1 t) (iblk m c 2 t) (prev m c t).2.1)
    ∧ (outsAt0 m c t.val t.isLt).2.2.1 = k0_pay11 (iblk m c 0 t) (iblk m c 1 t) (iblk m c 2 t) (prev m c t).2.1 (prev m c t).2.2.1
    ∧ (outsAt0 m c t.val t.isLt).2.2.2 = k0_pay1 (k0_pay9 (iblk m c 0 t) (iblk m c 1 t) (iblk m c 2 t) (prev m c t).2.1) (k0_pay10 (iblk m c 0 t) (iblk m c 1 t) (iblk m c 2 t) (prev m c t).2.1)
        (Pieces.whRows (grid0.coords t) (iblk m c 3 t)) (prev m c t).2.2.2)
    ∧ (outsAt0 m c t.val t.isLt).1 = k0_pay3 (k0_pay1 (k0_pay9 (iblk m c 0 t) (iblk m c 1 t) (iblk m c 2 t) (prev m c t).2.1) (k0_pay10 (iblk m c 0 t) (iblk m c 1 t) (iblk m c 2 t) (prev m c t).2.1)
        (Pieces.whRows (grid0.coords t) (iblk m c 3 t)) (prev m c t).2.2.2) (k0_pay11 (iblk m c 0 t) (iblk m c 1 t) (iblk m c 2 t) (prev m c t).2.1 (prev m c t).2.2.1) := by
  have e := outsAt0_C m c t h0 h1
  rw [Pieces.max_last (F := Ideal), Pieces.sum_last (F := Ideal), Pieces.acc_last (F := Ideal), Pieces.out_last (F := Ideal)] at e
  exact ⟨⟨congrArg (fun x => x.2.1) e, congrArg (fun x => x.2.2.1) e, congrArg (fun x => x.2.2.2) e⟩, congrArg (fun x => x.1) e⟩

/-- THE INVARIANT: after point `n` the three buffers hold, row by row, the state after `n % 4 + 1` column blocks. -/
def Holds (n : ℕ) (h : n < cfg0.N) : Prop :=
  ∀ p : Fin 1024,
    (outsAt0 m c n h).2.1 (ix2 p (0 : Fin 1)) = (St m c (grow ⟨n, h⟩ p) (n % 4 + 1)).1
    ∧ (outsAt0 m c n h).2.2.1 (ix2 p (0 : Fin 1)) = (St m c (grow ⟨n, h⟩ p) (n % 4 + 1)).2.1
    ∧ ∀ d : Fin 128, (outsAt0 m c n h).2.2.2 (ix2 p d) = (St m c (grow ⟨n, h⟩ p) (n % 4 + 1)).2.2 d

theorem holds_first (t : Fin cfg0.N) (h0 : t.val % 4 = 0) : Holds m c t.val t.isLt := by
  intro p
  have h1 : ¬t.val % 4 = 3 := by omega
  obtain ⟨a0, a1, a2⟩ := scratch_first m c t h0 h1
  have hz : t.val % 4 = 0 := h0
  have s := step m c t (k0_pay4 (F := Ideal)) (k0_pay5 (F := Ideal)) (k0_pay6 (F := Ideal)) p
    (by rw [Pay.negInf_apply, hz]; rfl) (by rw [Pay.zeroCol_apply, hz]; rfl) (fun d => by rw [Pay.zeroBlk_apply, hz]; rfl)
  exact ⟨(congrFun a0 _).trans s.1, (congrFun a1 _).trans s.2.1, fun d => (congrFun a2 _).trans (s.2.2 d)⟩

/-- The point before a point that is not the first of its row block is in the same row block, one column block back. -/
theorem grow_prev (t : Fin cfg0.N) (h0 : ¬t.val % 4 = 0) (p : Fin 1024) :
    grow ⟨t.val - 1, Nat.lt_of_le_of_lt (Nat.sub_le _ _) t.isLt⟩ p = grow t p :=
  Fin.ext (by
    show 1024 * ((t.val - 1) / 4) + p.val = 1024 * (t.val / 4) + p.val
    omega)

theorem holds_next (t : Fin cfg0.N) (h0 : ¬t.val % 4 = 0)
    (ih : Holds m c (t.val - 1) (Nat.lt_of_le_of_lt (Nat.sub_le _ _) t.isLt)) : Holds m c t.val t.isLt := by
  intro p
  obtain ⟨i0, i1, i2⟩ := ih p
  have hj : (t.val - 1) % 4 + 1 = t.val % 4 := by omega
  rw [grow_prev t h0 p, hj] at i0 i1 i2
  have s := step m c t (prev m c t).2.1 (prev m c t).2.2.1 (prev m c t).2.2.2 p i0 i1 i2
  by_cases h1 : t.val % 4 = 3
  · obtain ⟨⟨a0, a1, a2⟩, -⟩ := scratch_last m c t h0 h1
    exact ⟨(congrFun a0 _).trans s.1, (congrFun a1 _).trans s.2.1, fun d => (congrFun a2 _).trans (s.2.2 d)⟩
  · obtain ⟨a0, a1, a2⟩ := scratch_mid m c t h0 h1
    exact ⟨(congrFun a0 _).trans s.1, (congrFun a1 _).trans s.2.1, fun d => (congrFun a2 _).trans (s.2.2 d)⟩

theorem holds : ∀ (n : ℕ) (h : n < cfg0.N), Holds m c n h
  | 0, h => holds_first m c ⟨0, h⟩ rfl
  | n + 1, h => by
    by_cases h0 : (n + 1) % 4 = 0
    · exact holds_first m c ⟨n + 1, h⟩ h0
    · exact holds_next m c ⟨n + 1, h⟩ h0 (holds n (Nat.lt_of_succ_lt h))

/-- THE OUTPUT BLOCK after a last column block: entry (p, d) is the one-pass result of global row `grow t p`. -/
theorem out_at_last (t : Fin cfg0.N) (h3 : t.val % 4 = 3) (p : Fin 1024) (d : Fin 128) :
    (outsAt0 m c t.val t.isLt).1 (ix2 p d)
      = Cert.Gat.kerOut (m ((c : Thread nD τ).loc main_arg0)) (m ((c : Thread nD τ).loc main_arg1)) (m ((c : Thread nD τ).loc main_arg2))
          (m ((c : Thread nD τ).loc main_arg3)) (grow t p) d := by
  have h0 : ¬t.val % 4 = 0 := by omega
  obtain ⟨⟨a0, a1, a2⟩, ao⟩ := scratch_last m c t h0 h3
  obtain ⟨-, b1, b2⟩ := holds m c t.val t.isLt p
  refine (congrFun ao _).trans ((Pay.ratio_apply _ _ p d).trans ?_)
  refine (congrArg₂ Ideal.div ((congrFun a2 _).symm.trans (b2 d)) ((congrFun a1 _).symm.trans b1)).trans ?_
  rw [h3]
  rfl

end Cert.KernelIdeal.Inv

end
-- ==== Proof.KFinal.lean ====
/-
  From the last column block to the kernel's result array, and its run.

  The grid is 8 row blocks of 1024 rows by 4 column blocks; point t is row block t / 4 and column block t % 4. The
  output block of 1024 rows by 128 lanes is written back to rows 1024 * (t / 4) .. 1024 * (t / 4) + 1023 of the result,
  and only at the last column block of each row block (t % 4 = 3). So if, at every such point, the output block holds
  the one-pass softmax form of the specification at its rows, the result array ends holding that form at every
  entry: each row r lies in the block written at the point 4 * (r / 1024) + 3.
-/
import proofs.«144379_j82592221102847_2_alg».proof.Proof.Gen.KernelIdeal.Value
import proofs.«144379_j82592221102847_2_alg».proof.Proof.KBlocks
import proofs.«144379_j82592221102847_2_alg».proof.Proof.Spec
import Idealize.ShloMosaic.Lib.Pipeline.Value
import Idealize.ShloMosaic.Lib.ValueIdx

noncomputable section

namespace Cert.KernelIdeal.KFinal

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ)

/-- The one-pass softmax form of the specification over the arguments' launch contents, as contents of the result
    array. -/
abbrev G (c : Dev nD) : S8192x128.Idx → EReal := fun i =>
  Cert.Gat.kerOut (m ((c : Thread nD τ).loc main_arg0)) (m ((c : Thread nD τ).loc main_arg1))
    (m ((c : Thread nD τ).loc main_arg2)) (m ((c : Thread nD τ).loc main_arg3)) (i 0) (i 1)

/-- What is assumed of the last column block of every row block: after it the output block holds, at local row p and
    lane d, the one-pass form at global row 1024 * (t / 4) + p and lane d. -/
abbrev OutHyp : Prop :=
  ∀ (c : Dev nD) (t : Fin cfg0.N), t.val % 4 = 3 → ∀ (p : Fin 1024) (d : Fin 128),
    (outsAt0 m c t.val t.isLt).1 (ix2 p d)
      = Cert.Gat.kerOut (m ((c : Thread nD τ).loc main_arg0)) (m ((c : Thread nD τ).loc main_arg1))
          (m ((c : Thread nD τ).loc main_arg2)) (m ((c : Thread nD τ).loc main_arg3)) (Blocks.grow t p) d

/-- What a point that writes back writes is its block of the one-pass form. -/
theorem flushed_eq (hOut : OutHyp m) (c : Dev nD) (t : Fin cfg0.N) (hf : (cfg0.win 4).flush t = true) :
    (dats m 0 c).flushed 4 t = ((cfg0.win 4).blk t).view.read (Elt Ideal) (G m c) := by
  have h3 : t.val % 4 = 3 := (flush0_4 t).mp hf
  obtain ⟨-, -, -, -, -, -, -, -, e40, e41, -⟩ := Blocks.idx_facts t
  rw [Value.flushed4]
  funext j
  obtain ⟨p, d, rfl⟩ : ∃ (p : Fin 1024) (d : Fin 128), j = ix2 p d := ⟨j 0, j 1, eq_ix2 j⟩
  show (outsAt0 m c t.val t.isLt).1 (ix2 p d) = G m c (((cfg0.win 4).blk t).view.emb (ix2 p d))
  rw [hOut c t h3 p d]
  show Cert.Gat.kerOut _ _ _ _ (Blocks.grow t p) d
      = Cert.Gat.kerOut _ _ _ _ ((((cfg0.win 4).blk t).view.emb (ix2 p d)) 0) ((((cfg0.win 4).blk t).view.emb (ix2 p d)) 1)
  have r0 : Blocks.grow t p = (((cfg0.win 4).blk t).view.emb (ix2 p d)) 0 := Fin.ext (by
    show 1024 * (t.val / 4) + p.val = win0_4.index t (0 : Fin 2) * 1024 + 1 * p.val
    omega)
  have r1 : d = (((cfg0.win 4).blk t).view.emb (ix2 p d)) 1 := Fin.ext (by
    show d.val = win0_4.index t (1 : Fin 2) * 128 + 1 * d.val
    omega)
  rw [← r0, ← r1]

/-- An index of the result is in point t's block exactly when each coordinate is in the block's range on its axis. -/
theorem mem_blk (t : Fin cfg0.N) (i : S8192x128.Idx) :
    i ∈ ((cfg0.win 4).blk t).view.set
      ↔ ∀ a : Fin 2, win0_4.index t a * S1024x128.size a ≤ (i a).val
          ∧ (i a).val < win0_4.index t a * S1024x128.size a + S1024x128.size a := by
  show i ∈ ((View.whole main_v7).slice (win0_4.rect t)).set ↔ _
  rw [View.set_slice_whole, Rect.mem_set_unit]
  exact Iff.rfl

/-- The result array ends holding the one-pass form: row r is written at the last column block of its row block. -/
theorem final_of (hOut : OutHyp m) (c : Dev nD) : (dats m 0 c).arrAt 4 cfg0.N = G m c :=
  (dats m 0 c).arrAt_eq_of_cover 4 (G m c) (flushed_eq m hOut c) fun i => by
    have hi0 : (i 0).val < 8192 := (i 0).isLt
    have hi1 : (i 1).val < 128 := (i 1).isLt
    have hN : cfg0.N = 32 := N_0
    let t : Fin cfg0.N := ⟨4 * ((i 0).val / 1024) + 3, by omega⟩
    have ht : t.val = 4 * ((i 0).val / 1024) + 3 := rfl
    obtain ⟨-, -, -, -, -, -, -, -, e40, e41, -⟩ := Blocks.idx_facts t
    refine ⟨t, (flush0_4 t).mpr (by omega), ?_⟩
    rw [mem_blk]
    intro a
    match a with
    | ⟨0, _⟩ =>
      show win0_4.index t (0 : Fin 2) * 1024 ≤ (i 0).val ∧ (i 0).val < win0_4.index t (0 : Fin 2) * 1024 + 1024
      omega
    | ⟨1, _⟩ =>
      show win0_4.index t (1 : Fin 2) * 128 ≤ (i 1).val ∧ (i 1).val < win0_4.index t (1 : Fin 2) * 128 + 128
      omega

/-- The run, read: the result array at the one-pass form of the specification, the four arguments unchanged. -/
theorem run_of (hOut : OutHyp m) (ρ : Dev nD → PrngReg) :
    θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_of m hOut c), (h c).2⟩) (Value.run_blocks m ρ)

end Cert.KernelIdeal.KFinal

end
-- ==== Proof.lean ====
/-
  A graph-attention layer: one-pass blocked softmax against the two-pass softmax.

  Both programs project the node features (`Wh = X · Ws`), form the two attention terms `e1 = Wh · a[0:128]` and
  `e2 = Wh · a[128:256]`, and score every pair of nodes by the leaky rectifier (slope 0.2) of `e1 r + e2 c` on an edge of
  the adjacency matrix and by the finite fill value off it. The reference then takes, row by row, the softmax of the
  scores — subtract the row's maximum, exponentiate, divide each weight by the row's sum — and multiplies by `Wh`. The
  kernel walks each block of 1024 rows through four blocks of 2048 columns, carrying per row a running maximum, a
  running sum of weights and a running weighted sum of rows of `Wh`, rescaling the two sums by `exp (old - new)` when
  the maximum moves, and divides the weighted sum by the sum of weights once, after the last column block.

  On the extended reals the two agree whenever the float inputs are finite: every score is then a real number, the row
  maximum is attained, the sum of weights is at least 1, and in the reals
  `exp (m - m') · exp (x - m) = exp (x - m')` and `(Σ w_c · v_c) / L = Σ (w_c / L) · v_c`. The precondition is used
  exactly there. The word-level kernel and its idealization are the same text (the ideal pass rewrote nothing), so
  that claim is trivial; the three frames are the generated frame runs and the reference's run with its result dropped.

  The pieces: the specification of both forms (Spec); the algebra of the one-pass form (SoftmaxAbs, SoftmaxCols,
  SoftmaxReal, Softmax); finiteness of the inputs from the precondition (FinitePre); the reference's run and its result
  at an index (RefRun, RefRead); on the kernel's side what one run of the body leaves in the carried buffers (KPieces),
  its arithmetic at an entry (KPay, with the column layouts of LibColumnLayout and the matrix product of LibPlainDot),
  which global entries a block holds (KBlocks), the arrays the host computes before the launch (KHost), the induction
  over the 32 grid points (KInv), and the result array from the written-back blocks (KFinal); the claims are put
  together in Assembly.
-/
import proofs.«144379_j82592221102847_2_alg».proof.Defs
import proofs.«144379_j82592221102847_2_alg».proof.Proof.Gen.Kernel
import proofs.«144379_j82592221102847_2_alg».proof.Proof.Gen.Kernel.Skeleton
import proofs.«144379_j82592221102847_2_alg».proof.Proof.Gen.Kernel.Launch
import proofs.«144379_j82592221102847_2_alg».proof.Proof.Gen.Kernel.Points
import proofs.«144379_j82592221102847_2_alg».proof.Proof.Gen.Kernel.Frame
import proofs.«144379_j82592221102847_2_alg».proof.Proof.Gen.KernelIdeal
import proofs.«144379_j82592221102847_2_alg».proof.Proof.Gen.KernelIdeal.Skeleton
import proofs.«144379_j82592221102847_2_alg».proof.Proof.Gen.KernelIdeal.Launch
import proofs.«144379_j82592221102847_2_alg».proof.Proof.Gen.KernelIdeal.Points
import proofs.«144379_j82592221102847_2_alg».proof.Proof.Gen.KernelIdeal.Frame
import proofs.«144379_j82592221102847_2_alg».proof.Proof.Gen.KernelIdeal.Value
import proofs.«144379_j82592221102847_2_alg».proof.Proof.Gen.ReferenceIdeal
import proofs.«144379_j82592221102847_2_alg».proof.Proof.Gen.Pre_finite_inputs
import proofs.«144379_j82592221102847_2_alg».proof.Proof.Assembly
import proofs.«144379_j82592221102847_2_alg».proof.Proof.KInv
import proofs.«144379_j82592221102847_2_alg».proof.Proof.KFinal
import Idealize.ShloMosaic.Adequacy
import Idealize.ShloMosaic.Init

noncomputable section

namespace Cert.Proof

open Idealize.ShloMosaic Idealize.SL.Sem

/-- The kernel's run at the extended reals: its result array ends at the one-pass form of the specification, entry by
    entry, and its arguments are unchanged. -/
theorem kernel_run : Cert.Proof.Assembly.KernelRun := fun m ρ =>
  Cert.KernelIdeal.KFinal.run_of m (fun c t h3 p d => Cert.KernelIdeal.Inv.out_at_last m c t h3 p d) ρ

theorem claim : Cert.Claim := Cert.Proof.Assembly.claim_of kernel_run

end Cert.Proof

end
